-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S256x256 : Shape := ⟨2, ![256, 256]⟩
abbrev S100x256 : Shape := ⟨2, ![100, 256]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S100x256 : S_.BroadcastsInDim S100x256 (![] : Fin 0 → Fin S100x256.rank)
  reducesTo_S100x256_S_d0_1 : S100x256.ReducesTo [0, 1] S_

variable [Facts]

def fn_part1 {F : FTy → Type} [FloatOps F] (main_arg4 : FVec F S100x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S100x256 .f32 := Host.absf main_arg4
  let main_cst_6 : FVec F S_ .f32 := constant S_ .f32 0x7F800000#32
  let main_v20 : FVec F S100x256 .f32 := broadcastInDim S100x256 ![] bcast_S_S100x256 main_cst_6
  let main_v21 : IVec S100x256 1 := cmpf .olt main_v19 main_v20
  let main_c_7 : IVec S_ 1 := constantI S_ 1 1#1
  let main_v22 : IVec S_ 1 := (fun x v => Host.reduce IntOp.andi x v reducesTo_S100x256_S_d0_1 h_S_) main_v21 main_c_7
  let main_v23 : IVec S_ 1 := andi main_v18 main_v22
  main_v23

def fn {F : FTy → Type} [FloatOps F] (main_arg0 : FVec F S4096x64x128 .f32) (main_arg1 : FVec F S4096x64x128 .f32) (main_arg2 : FVec F S256x256 .f32) (main_arg3 : FVec F S256x256 .f32) (main_arg4 : FVec F S100x256 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S4096x64x128 .f32 := Host.absf main_arg1
  let main_cst_0 : FVec F S_ .f32 := constant S_ .f32 0x7F800000#32
  let main_v5 : FVec F S4096x64x128 .f32 := broadcastInDim S4096x64x128 ![] bcast_S_S4096x64x128 main_cst_0
  let main_v6 : IVec S4096x64x128 1 := cmpf .olt main_v4 main_v5
  let main_c_1 : IVec S_ 1 := constantI S_ 1 1#1
  let main_v7 : IVec S_ 1 := (fun x v => Host.reduce IntOp.andi x v reducesTo_S4096x64x128_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x64x128 : Shape := ⟨3, ![4096, 64, 128]⟩
abbrev S256x256 : Shape := ⟨2, ![256, 256]⟩
abbrev S100x256 : Shape := ⟨2, ![100, 256]⟩
abbrev S64x256 : Shape := ⟨2, ![64, 256]⟩
abbrev S256x512 : Shape := ⟨2, ![256, 512]⟩
abbrev S4096x64x256 : Shape := ⟨3, ![4096, 64, 256]⟩
abbrev S32x64x128 : Shape := ⟨3, ![32, 64, 128]⟩
abbrev S32x64x256 : Shape := ⟨3, ![32, 64, 256]⟩
abbrev S1x64x256 : Shape := ⟨3, ![1, 64, 256]⟩
abbrev S2048x256 : Shape := ⟨2, ![2048, 256]⟩
abbrev S2048x512 : Shape := ⟨2, ![2048, 512]⟩
abbrev S32x64x512 : Shape := ⟨3, ![32, 64, 512]⟩
abbrev S32x64x64 : Shape := ⟨3, ![32, 64, 64]⟩
abbrev S32x64 : Shape := ⟨2, ![32, 64]⟩
abbrev S32x64x1 : Shape := ⟨3, ![32, 64, 1]⟩
abbrev S32x128x64 : Shape := ⟨3, ![32, 128, 64]⟩
abbrev S32x128x256 : Shape := ⟨3, ![32, 128, 256]⟩

abbrev nBuf : Space → Nat
  | .hbm => 9
  | .vmem => 10
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S256x256, .f32⟩
  | .hbm, ⟨3, _⟩ => ⟨S256x256, .f32⟩
  | .hbm, ⟨4, _⟩ => ⟨S100x256, .f32⟩
  | .hbm, ⟨5, _⟩ => ⟨S64x256, .f32⟩
  | .hbm, ⟨6, _⟩ => ⟨S256x512, .f32⟩
  | .hbm, ⟨7, _⟩ => ⟨S4096x64x256, .f32⟩
  | .hbm, ⟨8, _⟩ => ⟨S4096x64x256, .f32⟩
  | .local _ .vmem, ⟨0, _⟩ => ⟨S32x64x128, .f32⟩
  | .local _ .vmem, ⟨1, _⟩ => ⟨S32x64x128, .f32⟩
  | .local _ .vmem, ⟨2, _⟩ => ⟨S32x64x128, .f32⟩
  | .local _ .vmem, ⟨3, _⟩ => ⟨S32x64x128, .f32⟩
  | .local _ .vmem, ⟨4, _⟩ => ⟨S256x512, .f32⟩
  | .local _ .vmem, ⟨5, _⟩ => ⟨S64x256, .f32⟩
  | .local _ .vmem, ⟨6, _⟩ => ⟨S32x64x256, .f32⟩
  | .local _ .vmem, ⟨7, _⟩ => ⟨S32x64x256, .f32⟩
  | .local _ .vmem, ⟨8, _⟩ => ⟨S32x64x256, .f32⟩
  | .local _ .vmem, ⟨9, _⟩ => ⟨S32x64x256, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S100x256_S64x256_0_0 : S100x256.Slices ![0, 0] S64x256
  concatenates_S256x256_S256x256_S256x512_d1 : Shape.Concatenates [S256x256, S256x256] S256x512 1
  inb_S32x64x128_S32x64x128_0_0_0 : ∀ a, (![0, 0, 0] : Fin 3 → Nat) a + S32x64x128.size a ≤ S32x64x128.size a
  h_S32x64x128 : 0 < S32x64x128.numel
  concatenates_S32x64x128_S32x64x128_S32x64x256_d2 : Shape.Concatenates [S32x64x128, S32x64x128] S32x64x256 2
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S1x64x256 : S64x256.ShapeCasts S1x64x256
  broadcasts_S1x64x256_S32x64x256 : S1x64x256.Broadcasts S32x64x256
  bitsLt_bf16_f32 : FTy.bits .bf16 < FTy.bits .f32
  shapeCasts_S32x64x256_S2048x256 : S32x64x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S2048x512_S32x64x512 : S2048x512.ShapeCasts S32x64x512
  slices_S32x64x512_o0_0_0_S32x64x256 : S32x64x512.Slices ![0, 0, 0] S32x64x256
  slices_S32x64x512_o0_0_256_S32x64x256 : S32x64x512.Slices ![0, 0, 256] S32x64x256
  reduces_S32x64x64_S32x64 : S32x64x64.Reduces [2] S32x64
  shapeCasts_S32x64_S32x64x1 : S32x64.ShapeCasts S32x64x1
  broadcasts_S32x64x1_S32x64x64 : S32x64x1.Broadcasts S32x64x64
  concatenates_S32x64x64_S32x64x64_S32x128x64_d1 : Shape.Concatenates [S32x64x64, S32x64x64] S32x128x64 1
  slices_S32x128x256_o0_0_0_S32x64x256 : S32x128x256.Slices ![0, 0, 0] S32x64x256
  slices_S32x128x256_o0_64_0_S32x64x256 : S32x128x256.Slices ![0, 64, 0] S32x64x256
  inb_S32x64x256_S32x64x256_0_0_0 : ∀ a, (![0, 0, 0] : Fin 3 → Nat) a + S32x64x256.size a ≤ S32x64x256.size a
  h_S32x64x256 : 0 < S32x64x256.numel
  dot_S2048x256_S256x512_S2048x512_1_0_0_1_n_n_wf : DotDims.WF S2048x256 S256x512 S2048x512 [1] [0] [0] [1] [] []
  dot_S32x64x256_S32x64x256_S32x64x64_2_2_1_1_0_0_wf : DotDims.WF S32x64x256 S32x64x256 S32x64x64 [2] [2] [1] [1] [0] [0]
  dot_S32x128x64_S32x64x256_S32x128x256_2_1_1_2_0_0_wf : DotDims.WF S32x128x64 S32x64x256 S32x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x128.size a ≤ S4096x64x128.size a
  hwx0_0 : ∀ i : grid0.Coords, EltTy.bits .f32 = 32 ∨ (Rect.block (s := S4096x64x128) S32x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x128.size a ≤ S4096x64x128.size a
  hwx0_1 : ∀ i : grid0.Coords, EltTy.bits .f32 = 32 ∨ (Rect.block (s := S4096x64x128) S32x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64x256.size a ≤ S4096x64x256.size a
  hwx0_4 : ∀ i : grid0.Coords, EltTy.bits .f32 = 32 ∨ (Rect.block (s := S4096x64x256) S32x64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x64x256.size a ≤ S4096x64x256.size a
  hwx0_5 : ∀ i : grid0.Coords, EltTy.bits .f32 = 32 ∨ (Rect.block (s := S4096x64x256) S32x64x256.size (cc0_transform_5 i) (hinb0_5 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S32x64x256_S32x64x256_S32x64x64_2_2_1_1_0_0 : DotDims S32x64x256 S32x64x256 S32x64x64 where
  lhsContracting := [2]
  rhsContracting := [2]
  lhsNonContracting := [1]
  rhsNonContracting := [1]
  lhsBatch := [0]
  rhsBatch := [0]
  wf := dot_S32x64x256_S32x64x256_S32x64x64_2_2_1_1_0_0_wf
def dot_S32x128x64_S32x64x256_S32x128x256_2_1_1_2_0_0 : DotDims S32x128x64 S32x64x256 S32x128x256 where
  lhsContracting := [2]
  rhsContracting := [1]
  lhsNonContracting := [1]
  rhsNonContracting := [2]
  lhsBatch := [0]
  rhsBatch := [0]
  wf := dot_S32x128x64_S32x64x256_S32x128x256_2_1_1_2_0_0_wf

abbrev win0_0 : Pipeline.Window sig grid0 :=
  Pipeline.Window.ofSpec (Memref.whole main_arg0) S32x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S32x64x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S32x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S256x256 : Shape := ⟨2, ![256, 256]⟩
abbrev S100x256 : Shape := ⟨2, ![100, 256]⟩
abbrev S4096x64x256 : Shape := ⟨3, ![4096, 64, 256]⟩
abbrev S64x256 : Shape := ⟨2, ![64, 256]⟩
abbrev S1x64x256 : Shape := ⟨3, ![1, 64, 256]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S4096x64x128, .f32⟩
  | .hbm, ⟨2, _⟩ => ⟨S256x256, .f32⟩
  | .hbm, ⟨3, _⟩ => ⟨S256x256, .f32⟩
  | .hbm, ⟨4, _⟩ => ⟨S100x256, .f32⟩
  | .hbm, ⟨5, _⟩ => ⟨S4096x64x256, .f32⟩
  | .hbm, ⟨6, _⟩ => ⟨S64x256, .f32⟩
  | .hbm, ⟨7, _⟩ => ⟨S1x64x256, .f32⟩
  | .hbm, ⟨8, _⟩ => ⟨S4096x64x256, .f32⟩
  | .hbm, ⟨9, _⟩ => ⟨S4096x64x256, .f32⟩
  | .hbm, ⟨10, _⟩ => ⟨S4096x64x256, .f32⟩
  | .hbm, ⟨11, _⟩ => ⟨S4096x64x256, .f32⟩
  | .hbm, ⟨12, _⟩ => ⟨S4096x64x64, .f32⟩
  | .hbm, ⟨13, _⟩ => ⟨S_, .f32⟩
  | .hbm, ⟨14, _⟩ => ⟨S_, .f32⟩
  | .hbm, ⟨15, _⟩ => ⟨S4096x64x64, .f32⟩
  | .hbm, ⟨16, _⟩ => ⟨S4096x64x64, .f32⟩
  | .hbm, ⟨17, _⟩ => ⟨S_, .f32⟩
  | .hbm, ⟨18, _⟩ => ⟨S4096x64x64, .f32⟩
  | .hbm, ⟨19, _⟩ => ⟨S4096x64x64, .f32⟩
  | .hbm, ⟨20, _⟩ => ⟨S_, .f32⟩
  | .hbm, ⟨21, _⟩ => ⟨S4096x64, .f32⟩
  | .hbm, ⟨22, _⟩ => ⟨S_, .f32⟩
  | .hbm, ⟨23, _⟩ => ⟨S4096x64, .f32⟩
  | .hbm, ⟨24, _⟩ => ⟨S4096x64, .f32⟩
  | .hbm, ⟨25, _⟩ => ⟨S4096x64x1, .f32⟩
  | .hbm, ⟨26, _⟩ => ⟨S4096x64x64, .f32⟩
  | .hbm, ⟨27, _⟩ => ⟨S4096x64x64, .f32⟩
  | .hbm, ⟨28, _⟩ => ⟨S4096x64x64, .f32⟩
  | .hbm, ⟨29, _⟩ => ⟨S_, .f32⟩
  | .hbm, ⟨30, _⟩ => ⟨S4096x64, .f32⟩
  | .hbm, ⟨31, _⟩ => ⟨S4096x64x1, .f32⟩
  | .hbm, ⟨32, _⟩ => ⟨S4096x64x64, .f32⟩
  | .hbm, ⟨33, _⟩ => ⟨S4096x64x64, .f32⟩
  | .hbm, ⟨34, _⟩ => ⟨S4096x64x64, .f32⟩
  | .hbm, ⟨35, _⟩ => ⟨S_, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S4096x64x1, .f32⟩
  | .hbm, ⟨41, _⟩ => ⟨S4096x64x64, .f32⟩
  | .hbm, ⟨42, _⟩ => ⟨S4096x64x64, .f32⟩
  | .hbm, ⟨43, _⟩ => ⟨S4096x64x64, .f32⟩
  | .hbm, ⟨44, _⟩ => ⟨S_, .f32⟩
  | .hbm, ⟨45, _⟩ => ⟨S4096x64, .f32⟩
  | .hbm, ⟨46, _⟩ => ⟨S4096x64x1, .f32⟩
  | .hbm, ⟨47, _⟩ => ⟨S4096x64x64, .f32⟩
  | .hbm, ⟨48, _⟩ => ⟨S4096x64x64, .f32⟩
  | .hbm, ⟨49, _⟩ => ⟨S4096x64x256, .f32⟩
  | .hbm, ⟨50, _⟩ => ⟨S4096x64x256, .f32⟩
  | .hbm, ⟨51, _⟩ => ⟨S4096x64x256, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  concatenates_S4096x64x128_S4096x64x128_S4096x64x256_d2 : Shape.Concatenates [S4096x64x128, S4096x64x128] S4096x64x256 2
  slices_S100x256_S64x256_0_0 : S100x256.Slices ![0, 0] S64x256
  bcast_S64x256_S1x64x256_1_2 : S64x256.BroadcastsInDim S1x64x256 (![1, 2] : Fin 2 → Fin S1x64x256.rank)
  bcast_S1x64x256_S4096x64x256_0_1_2 : S1x64x256.BroadcastsInDim S4096x64x256 (![0, 1, 2] : Fin 3 → Fin S4096x64x256.rank)
  bcast_S_S4096x64x64 : S_.BroadcastsInDim S4096x64x64 (![] : Fin 0 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  dot_S4096x64x256_S256x256_S4096x64x256_2_0_01_1_n_n_wf : DotDims.WF S4096x64x256 S256x256 S4096x64x256 [2] [0] [0, 1] [1] [] []
  dot_S4096x64x256_S4096x64x256_S4096x64x64_2_2_1_1_0_0_wf : DotDims.WF S4096x64x256 S4096x64x256 S4096x64x64 [2] [2] [1] [1] [0] [0]
  dot_S4096x64x64_S4096x64x256_S4096x64x256_2_1_1_2_0_0_wf : DotDims.WF S4096x64x64 S4096x64x256 S4096x64x256 [2] [1] [1] [2] [0] [0]

variable [Facts₀]

def dot_S4096x64x256_S256x256_S4096x64x256_2_0_01_1_n_n : DotDims S4096x64x256 S256x256 S4096x64x256 where
  lhsContracting := [2]
  rhsContracting := [0]
  lhsNonContracting := [0, 1]
  rhsNonContracting := [1]
  lhsBatch := []
  rhsBatch := []
  wf := dot_S4096x64x256_S256x256_S4096x64x256_2_0_01_1_n_n_wf
def dot_S4096x64x256_S4096x64x256_S4096x64x64_2_2_1_1_0_0 : DotDims S4096x64x256 S4096x64x256 S4096x64x64 where
  lhsContracting := [2]
  rhsContracting := [2]
  lhsNonContracting := [1]
  rhsNonContracting := [1]
  lhsBatch := [0]
  rhsBatch := [0]
  wf := dot_S4096x64x256_S4096x64x256_S4096x64x64_2_2_1_1_0_0_wf
def dot_S4096x64x64_S4096x64x256_S4096x64x256_2_1_1_2_0_0 : DotDims S4096x64x64 S4096x64x256 S4096x64x256 where
  lhsContracting := [2]
  rhsContracting := [1]
  lhsNonContracting := [1]
  rhsNonContracting := [2]
  lhsBatch := [0]
  rhsBatch := [0]
  wf := dot_S4096x64x64_S4096x64x256_S4096x64x256_2_1_1_2_0_0_wf

class Facts : Prop extends Facts₀ where

variable [Facts]
-- ==== Proof.LibLayout3.lean ====
/-
  Rank-3 layout operations read at an element.

  Arrays `[a, b, c]` are read at `(i, j, k)`:
  * two pieces joined along the last axis, or along the middle axis, read the first piece below its extent and the
    second piece, the extent less, from there on (and the same for two matrices joined along their columns);
  * a slice along the last axis from an offset reads the source that far along;
  * `[b, c]` seen as `[1, b, c]` and repeated over `a` leading entries reads `(j, k)` of the operand;
  * `[a, b]` seen as `[a, b, 1]` and repeated `c` times along the last axis reads `(i, j)` of the operand
    (what a sum or maximum over the last axis with the axis kept goes through);
  * the leading two axes merged, `[a, b, c] → [a·b, c]`, and split again: row `i·b + j` is `(i, j)`;
  * the index a reduction over the last axis sums over: `(i, j)` with `k` put back is `(i, j, k)`.
  General in the extents and the element type.
-/
import Idealize.ShloMosaic.PureOps.Ideal
import Idealize.ShloMosaic.Lib.ValueIdx
import Idealize.ShloMosaic.Lib.Pipeline.Value
import Idealize.ShloMosaic.PureOps.Reduce

noncomputable section

namespace Cert.Lib.Layout3

open Idealize.ShloMosaic Idealize.ShloMosaic.ValueIdx

variable {α : Type}

/-! ## Two pieces joined -/

/-- Joined along the LAST axis. -/
theorem concat_axis2_apply {a b c₁ c₂ c : Nat}
    (x₁ : (⟨3, ![a, b, c₁]⟩ : Shape).Idx → α) (x₂ : (⟨3, ![a, b, c₂]⟩ : Shape).Idx → α)
    (h : Shape.Concatenates [(⟨3, ![a, b, c₁]⟩ : Shape), ⟨3, ![a, b, c₂]⟩] ⟨3, ![a, b, c]⟩ 2) (hc : c = c₁ + c₂)
    (i : Fin a) (j : Fin b) (k : Fin c) :
    concatenate ⟨3, ![a, b, c]⟩ 2 [⟨⟨3, ![a, b, c₁]⟩, x₁⟩, ⟨⟨3, ![a, b, c₂]⟩, x₂⟩] h (ix3 i j k)
      = if hk : k.val < c₁ then x₁ (ix3 i j ⟨k.val, hk⟩) else x₂ (ix3 i j ⟨k.val - c₁, by have := k.isLt; omega⟩) := by
  split
  · next hk =>
    exact concatenate_pair_apply_left (2 : Fin 3) x₁ x₂ h (ix3 i j k) rfl (ix3 i j ⟨k.val, hk⟩) (fun ax => by
      match ax with
      | ⟨0, _⟩ => rfl
      | ⟨1, _⟩ => rfl
      | ⟨2, _⟩ => rfl)
  · next hk =>
    refine concatenate_pair_apply_right (2 : Fin 3) x₁ x₂ h (ix3 i j k) rfl rfl
      (ix3 i j ⟨k.val - c₁, by have := k.isLt; omega⟩) (fun ax hax => ?_) ?_
    · match ax with
      | ⟨0, _⟩ => rfl
      | ⟨1, _⟩ => rfl
      | ⟨2, _⟩ => exact absurd rfl hax
    · show k.val - c₁ + c₁ = k.val
      omega

/-- Joined along the MIDDLE axis. -/
theorem concat_axis1_apply {a b₁ b₂ b c : Nat}
    (x₁ : (⟨3, ![a, b₁, c]⟩ : Shape).Idx → α) (x₂ : (⟨3, ![a, b₂, c]⟩ : Shape).Idx → α)
    (h : Shape.Concatenates [(⟨3, ![a, b₁, c]⟩ : Shape), ⟨3, ![a, b₂, c]⟩] ⟨3, ![a, b, c]⟩ 1) (hb : b = b₁ + b₂)
    (i : Fin a) (j : Fin b) (k : Fin c) :
    concatenate ⟨3, ![a, b, c]⟩ 1 [⟨⟨3, ![a, b₁, c]⟩, x₁⟩, ⟨⟨3, ![a, b₂, c]⟩, x₂⟩] h (ix3 i j k)
      = if hj : j.val < b₁ then x₁ (ix3 i ⟨j.val, hj⟩ k) else x₂ (ix3 i ⟨j.val - b₁, by have := j.isLt; omega⟩ k) := by
  split
  · next hj =>
    exact concatenate_pair_apply_left (1 : Fin 3) x₁ x₂ h (ix3 i j k) rfl (ix3 i ⟨j.val, hj⟩ k) (fun ax => by
      match ax with
      | ⟨0, _⟩ => rfl
      | ⟨1, _⟩ => rfl
      | ⟨2, _⟩ => rfl)
  · next hj =>
    refine concatenate_pair_apply_right (1 : Fin 3) x₁ x₂ h (ix3 i j k) rfl rfl
      (ix3 i ⟨j.val - b₁, by have := j.isLt; omega⟩ k) (fun ax hax => ?_) ?_
    · match ax with
      | ⟨0, _⟩ => rfl
      | ⟨1, _⟩ => exact absurd rfl hax
      | ⟨2, _⟩ => rfl
    · show j.val - b₁ + b₁ = j.val
      omega

/-- The rank-2 companion: two matrices joined along their columns. -/
theorem concat2_axis1_apply {a b₁ b₂ b : Nat}
    (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (hb : b = b₁ + b₂)
    (i : Fin a) (j : Fin b) :
    concatenate ⟨2, ![a, b]⟩ 1 [⟨⟨2, ![a, b₁]⟩, x₁⟩, ⟨⟨2, ![a, b₂]⟩, x₂⟩] h (ix2 i j)
      = if hj : j.val < b₁ then x₁ (ix2 i ⟨j.val, hj⟩) else x₂ (ix2 i ⟨j.val - b₁, by have := j.isLt; omega⟩) := by
  split
  · next hj =>
    exact concatenate_pair_apply_left (1 : Fin 2) x₁ x₂ h (ix2 i j) rfl (ix2 i ⟨j.val, hj⟩) (fun ax => by
      match ax with
      | ⟨0, _⟩ => rfl
      | ⟨1, _⟩ => rfl)
  · next hj =>
    refine concatenate_pair_apply_right (1 : Fin 2) x₁ x₂ h (ix2 i j) rfl rfl
      (ix2 i ⟨j.val - b₁, by have := j.isLt; omega⟩) (fun ax hax => ?_) ?_
    · match ax with
      | ⟨0, _⟩ => rfl
      | ⟨1, _⟩ => exact absurd rfl hax
    · show j.val - b₁ + b₁ = j.val
      omega

/-! ## A slice along the last axis -/

/-- Cut along the last axis from `o`: `(i, j, k)` reads the source at `(i, j, o + k)`. -/
theorem slice_axis2_apply {a b c m : Nat} (o : Nat) (X : (⟨3, ![a, b, c]⟩ : Shape).Idx → α)
    (h : (⟨3, ![a, b, c]⟩ : Shape).Slices ![0, 0, o] ⟨3, ![a, b, m]⟩)
    (i : Fin a) (j : Fin b) (k : Fin m) (k' : Fin c) (hk : k'.val = o + k.val) :
    extractStridedSlice ⟨3, ![a, b, m]⟩ ![0, 0, o] X h (ix3 i j k) = X (ix3 i j k') :=
  extractStridedSlice_apply _ _ _ _ _ (fun ax => by
    match ax with
    | ⟨0, _⟩ => exact (Nat.zero_add _).symm
    | ⟨1, _⟩ => exact (Nat.zero_add _).symm
    | ⟨2, _⟩ => exact hk)

/-! ## A matrix repeated over a new leading axis -/

/-- `[1, b, c]` repeated over `a` leading entries reads, at `(i, j, k)`, the operand at `(0, j, k)`. -/
theorem broadcastTo_1bc_abc_apply {a b c : Nat} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## A kept last axis -/

/-- `[a, b]` seen as `[a, b, 1]` reads, at `(i, j, u)`, the operand at `(i, j)`. -/
theorem shapeCast_ab_ab1_apply {a b : Nat} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` repeated `c` times along the last axis reads, at `(i, j, k)`, the operand at `(i, j, 0)`. -/
theorem broadcastTo_ab1_abc_apply {a b c : Nat} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The leading two axes merged and split -/

/-- `[a, b, c]` seen as `[a·b, c]`: row `i·b + j` reads `(i, j)`. -/
theorem shapeCast_abc_rc_apply {a b c n : Nat} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[a·b, c]` seen as `[a, b, c]`: `(i, j)` reads row `i·b + j`. -/
theorem shapeCast_rc_abc_apply {a b c n : Nat} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## The index a reduction over the last axis runs over -/

/-- `(i, j)` with the coordinate `k` put back on the last axis is `(i, j, k)`. -/
theorem lift_axis2 {a b c : Nat} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

end Cert.Lib.Layout3

end
-- ==== Proof.LibSoftmax.lean ====
/-
  A softmax over the last axis of a rank-3 array, read at an element.

  For `S : [G, T, N]` the weights of row `(g, t)` are `exp (S − M) / Σ exp (S − M)` with `M` the row's maximum. Both a
  kernel's vector operations and the host's operations compute `M` as a maximum folded from -∞ over the last axis
  (and compared once more with -∞), carry it and the row's sum back over the last axis through a kept unit axis, and
  divide. Read at `(g, t, s)` at the ideal instance either spelling is `soft` of the row `s' ↦ S (g, t, s')`:
  the fold of `max` from -∞, the exact exponential, the exact sum (the host's started from a zero it adds), the
  extended reals' quotient. General in `G`, `T`, `N`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«161213_j35476429865426_2_alg».proof.Proof.LibLayout3

noncomputable section

open scoped BigOperators

namespace Cert.Lib.Softmax

open Idealize.ShloMosaic Idealize.ShloMosaic.ValueIdx Cert.Lib

/-- -∞ as the f32 pattern both programs spell. -/
abbrev negInf : EReal := Ideal.ofBits .f32 0xFF800000#32

/-- A row's maximum: folded from -∞, and compared with -∞ once more. -/
def rowMax {n : Nat} (S : Fin n → EReal) : EReal :=
  max negInf ((Finset.univ : Finset (Fin n)).fold max negInf S)

/-- A row's weights: the exponentials of the entries less the maximum, over their sum. -/
def soft {n : Nat} (S : Fin n → EReal) (s : Fin n) : EReal :=
  Ideal.div (Ideal.exp (S s - rowMax S)) (∑ s' : Fin n, Ideal.exp (S s' - rowMax S))

section
variable {G T N : Nat}

/-- The entries a fold over the last axis at `(g, t)` runs over are the row `s ↦ S (g, t, s)`. -/
theorem comp_lift (S : FVec Ideal (⟨3, ![G, T, N]⟩ : Shape) .f32) (hr : (⟨3, ![G, T, N]⟩ : Shape).Reduces [2] (⟨2, ![G, T]⟩ : Shape)) (g : Fin G) (t : Fin T) :
    (S ∘ hr.lift (ix2 g t)) = fun s : Fin N => S (ix3 g t s) :=
  funext fun k => congrArg S (Layout3.lift_axis2 hr g t k)

/-! ## A kernel's vector operations -/

section Kernel
variable (S : FVec Ideal (⟨3, ![G, T, N]⟩ : Shape) .f32) (hr : (⟨3, ![G, T, N]⟩ : Shape).Reduces [2] (⟨2, ![G, T]⟩ : Shape)) (hφ : FKind.Formats .f32)
  (hM : (0xFF800000#32 : BitVec 32) = FKind.maximumf.neutral .f32 hφ) (hA : (0x00000000#32 : BitVec 32) = FKind.add.neutral .f32 hφ)
  (hsc : (⟨2, ![G, T]⟩ : Shape).ShapeCasts (⟨3, ![G, T, 1]⟩ : Shape)) (hbc : (⟨3, ![G, T, 1]⟩ : Shape).Broadcasts (⟨3, ![G, T, N]⟩ : Shape))

/-- The row maximum a kernel takes, at `(g, t)`. -/
theorem kernel_rowMax_apply (g : Fin G) (t : Fin T) :
    (maximumf (broadcast (⟨2, ![G, T]⟩ : Shape) (Scalar.ofBits .f32 0xFF800000#32)) (multiReduction .maximumf [2] (⟨2, ![G, T]⟩ : Shape) S 0xFF800000#32 hr hφ hM)) (ix2 g t) = rowMax (fun s => S (ix3 g t s)) := by
  show max negInf (multiReduction .maximumf [2] (⟨2, ![G, T]⟩ : Shape) S 0xFF800000#32 hr hφ hM (ix2 g t)) = _
  rw [Ideal.multiReduction_maximumf_single]
  exact congrArg (fun f => max negInf (Finset.fold max negInf f (Finset.univ : Finset (Fin N)))) (comp_lift S hr g t)

/-- … carried back over the last axis. -/
theorem kernel_maxB_apply (g : Fin G) (t : Fin T) (s : Fin N) :
    (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc) (ix3 g t s) = rowMax (fun s' => S (ix3 g t s')) :=
  (Layout3.broadcastTo_ab1_abc_apply _ hbc g t s).trans
    ((Layout3.shapeCast_ab_ab1_apply _ hsc g t 0).trans (kernel_rowMax_apply S hr hφ hM g t))

/-- The exponential of an entry less its row's maximum. -/
theorem kernel_exp_apply (g : Fin G) (t : Fin T) (s : Fin N) :
    (exp (subf S (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc))) (ix3 g t s) = Ideal.exp (S (ix3 g t s) - rowMax (fun s' => S (ix3 g t s'))) := by
  show Ideal.exp (S (ix3 g t s) - (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc) (ix3 g t s)) = _
  rw [kernel_maxB_apply S hr hφ hM hsc hbc g t s]

/-- The row's sum of exponentials, carried back over the last axis. -/
theorem kernel_sumB_apply (g : Fin G) (t : Fin T) (s : Fin N) :
    (broadcastTo (⟨3, ![G, T, N]⟩ : Shape) (shapeCast (⟨3, ![G, T, 1]⟩ : Shape) (multiReduction .add [2] (⟨2, ![G, T]⟩ : Shape) (exp (subf S (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc))) 0x00000000#32 hr hφ hA) hsc) hbc) (ix3 g t s) = ∑ s' : Fin N, Ideal.exp (S (ix3 g t s') - rowMax (fun s'' => S (ix3 g t s''))) := by
  refine (Layout3.broadcastTo_ab1_abc_apply _ hbc g t s).trans ((Layout3.shapeCast_ab_ab1_apply _ hsc g t 0).trans ?_)
  refine (Ideal.multiReduction_add_single _ _ hr hφ hA (ix2 g t)).trans ?_
  refine Finset.sum_congr rfl fun k _ => ?_
  rw [Layout3.lift_axis2 hr g t k]
  exact kernel_exp_apply S hr hφ hM hsc hbc g t ⟨k.val, k.isLt⟩

/-- A KERNEL'S SOFTMAX over the last axis, read at `(g, t, s)`. -/
theorem kernel_soft_apply (g : Fin G) (t : Fin T) (s : Fin N) :
    (divf (exp (subf S (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc))) (broadcastTo (⟨3, ![G, T, N]⟩ : Shape) (shapeCast (⟨3, ![G, T, 1]⟩ : Shape) (multiReduction .add [2] (⟨2, ![G, T]⟩ : Shape) (exp (subf S (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc))) 0x00000000#32 hr hφ hA) hsc) hbc)) (ix3 g t s) = soft (fun s' => S (ix3 g t s')) s := by
  show Ideal.div ((exp (subf S (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc))) (ix3 g t s)) ((broadcastTo (⟨3, ![G, T, N]⟩ : Shape) (shapeCast (⟨3, ![G, T, 1]⟩ : Shape) (multiReduction .add [2] (⟨2, ![G, T]⟩ : Shape) (exp (subf S (broadcastTo (⟨3, ![G, T, N]⟩ : Shape) (shapeCast (⟨3, ![G, T, 1]⟩ : Shape) (maximumf (broadcast (⟨2, ![G, T]⟩ : Shape) (Scalar.ofBits .f32 0xFF800000#32)) (multiReduction .maximumf [2] (⟨2, ![G, T]⟩ : Shape) S 0xFF800000#32 hr hφ hM)) hsc) hbc))) 0x00000000#32 hr hφ hA) hsc) hbc) (ix3 g t s)) = _
  rw [kernel_sumB_apply S hr hφ hM hA hsc hbc g t s, kernel_exp_apply S hr hφ hM hsc hbc g t s]
  rfl

end Kernel

/-! ## The host's operations -/

section Host
variable (S : FVec Ideal (⟨3, ![G, T, N]⟩ : Shape) .f32) (hr' : (⟨3, ![G, T, N]⟩ : Shape).ReducesTo [2] (⟨2, ![G, T]⟩ : Shape))
  (hu : 0 < (⟨0, ![]⟩ : Shape).numel)
  (hb0 : (⟨0, ![]⟩ : Shape).BroadcastsInDim (⟨2, ![G, T]⟩ : Shape) ![]) (hb1 : (⟨2, ![G, T]⟩ : Shape).BroadcastsInDim (⟨3, ![G, T, 1]⟩ : Shape) ![0, 1])
  (hb2 : (⟨3, ![G, T, 1]⟩ : Shape).BroadcastsInDim (⟨3, ![G, T, N]⟩ : Shape) ![0, 1, 2])

/-- A `[G, T]` array carried over a new last axis of extent `N` reads, at `(g, t, s)`, the operand at `(g, t)`. -/
theorem host_keep_apply (v : (⟨2, ![G, T]⟩ : Shape).Idx → EReal) (g : Fin G) (t : Fin T) (s : Fin N) :
    (broadcastInDim (⟨3, ![G, T, N]⟩ : Shape) ![0, 1, 2] hb2 (broadcastInDim (⟨3, ![G, T, 1]⟩ : Shape) ![0, 1] hb1 v)) (ix3 g t s) = v (ix2 g t) := by
  refine (broadcastInDim_apply _ hb2 _ (ix3 g t s) (ix3 g t (0 : Fin 1)) fun ax => ?_).trans
    (broadcastInDim_apply _ hb1 v (ix3 g t (0 : Fin 1)) (ix2 g t) fun ax => ?_)
  · match ax with
    | ⟨0, _⟩ =>
      show g.val = if G = 1 then 0 else g.val
      split
      · have := g.isLt; omega
      · rfl
    | ⟨1, _⟩ =>
      show t.val = if T = 1 then 0 else t.val
      split
      · have := t.isLt; omega
      · rfl
    | ⟨2, _⟩ => rfl
  · match ax with
    | ⟨0, _⟩ =>
      show g.val = if G = 1 then 0 else g.val
      split
      · have := g.isLt; omega
      · rfl
    | ⟨1, _⟩ =>
      show t.val = if T = 1 then 0 else t.val
      split
      · have := t.isLt; omega
      · rfl

/-- The row maximum the host takes, at `(g, t)`. -/
theorem host_rowMax_apply (hr : (⟨3, ![G, T, N]⟩ : Shape).Reduces [2] (⟨2, ![G, T]⟩ : Shape)) (g : Fin G) (t : Fin T) :
    (maximumf (broadcastInDim (⟨2, ![G, T]⟩ : Shape) ![] hb0 (constant (⟨0, ![]⟩ : Shape) .f32 0xFF800000#32)) (Host.reduce FloatOps.maximumf S (constant (⟨0, ![]⟩ : Shape) .f32 0xFF800000#32) hr' hu)) (ix2 g t) = rowMax (fun s => S (ix3 g t s)) := by
  show max ((broadcastInDim (⟨2, ![G, T]⟩ : Shape) ![] hb0 (constant (⟨0, ![]⟩ : Shape) .f32 0xFF800000#32)) (ix2 g t))
      (Host.reduce FloatOps.maximumf S (constant (⟨0, ![]⟩ : Shape) .f32 0xFF800000#32) hr' hu (ix2 g t)) = _
  rw [broadcastInDim_apply _ hb0 (constant (F := Ideal) (⟨0, ![]⟩ : Shape) .f32 0xFF800000#32) (ix2 g t) ix0 (fun ax => ax.elim0),
    Host.reduce_eq_fold_single FloatOps.maximumf S _ hr' hr hu]
  exact congrArg (fun f => max negInf (Finset.fold max negInf f (Finset.univ : Finset (Fin N)))) (comp_lift S hr g t)

/-- The exponential of an entry less its row's maximum. -/
theorem host_exp_apply (hr : (⟨3, ![G, T, N]⟩ : Shape).Reduces [2] (⟨2, ![G, T]⟩ : Shape)) (g : Fin G) (t : Fin T) (s : Fin N) :
    (Host.exp (subf S (broadcastInDim (⟨3, ![G, T, N]⟩ : Shape) ![0, 1, 2] hb2 (broadcastInDim (⟨3, ![G, T, 1]⟩ : Shape) ![0, 1] hb1 (maximumf (broadcastInDim (⟨2, ![G, T]⟩ : Shape) ![] hb0 (constant (⟨0, ![]⟩ : Shape) .f32 0xFF800000#32)) (Host.reduce FloatOps.maximumf S (constant (⟨0, ![]⟩ : Shape) .f32 0xFF800000#32) hr' hu)))))) (ix3 g t s) = Ideal.exp (S (ix3 g t s) - rowMax (fun s' => S (ix3 g t s'))) := by
  show Ideal.exp (S (ix3 g t s) - (broadcastInDim (⟨3, ![G, T, N]⟩ : Shape) ![0, 1, 2] hb2 (broadcastInDim (⟨3, ![G, T, 1]⟩ : Shape) ![0, 1] hb1 (maximumf (broadcastInDim (⟨2, ![G, T]⟩ : Shape) ![] hb0 (constant (⟨0, ![]⟩ : Shape) .f32 0xFF800000#32)) (Host.reduce FloatOps.maximumf S (constant (⟨0, ![]⟩ : Shape) .f32 0xFF800000#32) hr' hu)))) (ix3 g t s)) = _
  rw [host_keep_apply hb1 hb2 _ g t s, host_rowMax_apply S hr' hu hb0 hr g t]

/-- THE HOST'S SOFTMAX over the last axis, read at `(g, t, s)`. -/
theorem host_soft_apply (hr : (⟨3, ![G, T, N]⟩ : Shape).Reduces [2] (⟨2, ![G, T]⟩ : Shape)) (g : Fin G) (t : Fin T) (s : Fin N) :
    (Host.divf (Host.exp (subf S (broadcastInDim (⟨3, ![G, T, N]⟩ : Shape) ![0, 1, 2] hb2 (broadcastInDim (⟨3, ![G, T, 1]⟩ : Shape) ![0, 1] hb1 (maximumf (broadcastInDim (⟨2, ![G, T]⟩ : Shape) ![] hb0 (constant (⟨0, ![]⟩ : Shape) .f32 0xFF800000#32)) (Host.reduce FloatOps.maximumf S (constant (⟨0, ![]⟩ : Shape) .f32 0xFF800000#32) hr' hu)))))) (broadcastInDim (⟨3, ![G, T, N]⟩ : Shape) ![0, 1, 2] hb2 (broadcastInDim (⟨3, ![G, T, 1]⟩ : Shape) ![0, 1] hb1 (Host.reduceAdd (Host.exp (subf S (broadcastInDim (⟨3, ![G, T, N]⟩ : Shape) ![0, 1, 2] hb2 (broadcastInDim (⟨3, ![G, T, 1]⟩ : Shape) ![0, 1] hb1 (maximumf (broadcastInDim (⟨2, ![G, T]⟩ : Shape) ![] hb0 (constant (⟨0, ![]⟩ : Shape) .f32 0xFF800000#32)) (Host.reduce FloatOps.maximumf S (constant (⟨0, ![]⟩ : Shape) .f32 0xFF800000#32) hr' hu)))))) (constant (⟨0, ![]⟩ : Shape) .f32 0x00000000#32) hr' hu)))) (ix3 g t s) = soft (fun s' => S (ix3 g t s')) s := by
  show Ideal.div ((Host.exp (subf S (broadcastInDim (⟨3, ![G, T, N]⟩ : Shape) ![0, 1, 2] hb2 (broadcastInDim (⟨3, ![G, T, 1]⟩ : Shape) ![0, 1] hb1 (maximumf (broadcastInDim (⟨2, ![G, T]⟩ : Shape) ![] hb0 (constant (⟨0, ![]⟩ : Shape) .f32 0xFF800000#32)) (Host.reduce FloatOps.maximumf S (constant (⟨0, ![]⟩ : Shape) .f32 0xFF800000#32) hr' hu)))))) (ix3 g t s)) ((broadcastInDim (⟨3, ![G, T, N]⟩ : Shape) ![0, 1, 2] hb2 (broadcastInDim (⟨3, ![G, T, 1]⟩ : Shape) ![0, 1] hb1 (Host.reduceAdd (Host.exp (subf S (broadcastInDim (⟨3, ![G, T, N]⟩ : Shape) ![0, 1, 2] hb2 (broadcastInDim (⟨3, ![G, T, 1]⟩ : Shape) ![0, 1] hb1 (maximumf (broadcastInDim (⟨2, ![G, T]⟩ : Shape) ![] hb0 (constant (⟨0, ![]⟩ : Shape) .f32 0xFF800000#32)) (Host.reduce FloatOps.maximumf S (constant (⟨0, ![]⟩ : Shape) .f32 0xFF800000#32) hr' hu)))))) (constant (⟨0, ![]⟩ : Shape) .f32 0x00000000#32) hr' hu))) (ix3 g t s)) = _
  rw [host_keep_apply hb1 hb2 _ g t s, host_exp_apply S hr' hu hb0 hb1 hb2 hr g t s]
  unfold soft
  refine congrArg (Ideal.div _) ?_
  simp only [Host.reduceAdd, Ideal.hostReduceAdd_def]
  rw [Ideal.hostReduceAdd_single hr' hr]
  show Ideal.ofBits .f32 0x00000000#32 + _ = _
  rw [Ideal.ofBits_zero_f32, zero_add]
  refine Finset.sum_congr rfl fun k _ => ?_
  rw [Layout3.lift_axis2 hr g t k]
  exact host_exp_apply S hr' hu hb0 hb1 hb2 hr g t ⟨k.val, k.isLt⟩

end Host

end

end Cert.Lib.Softmax

end
-- ==== Proof.Spec.lean ====
/-
  The mathematics of one attention item, with no program in sight.

  One item is a sequence of 64 tokens. Its real and imaginary halves (64 × 128 each) are laid side by side and a
  positional row is added: the EMBEDDING `X t h` (64 × 256). Two projections `X · Qw` and `X · Kw` give queries and keys;
  the SCORE of token `t` against token `s` is their inner product times one eighth. A row of scores is turned into
  weights by the usual exponential normalisation taken against the row's maximum (`soft`, folded from -∞), once for the scores
  and once for their negatives. The two results are the weighted sums of the embedding's rows, the first with the
  embedding added back.

  Everything is over the extended reals, and no law here needs a finite entry: the two ways of writing the scale
  (a product with 1/8; a quotient by √64 and then by 1) agree on every extended real, and so do `0 - x` and `-x`.
-/
import Idealize.ShloMosaic.PureOps.Ideal
import Idealize.ShloMosaic.PureOps.Ideal.Laws
import Idealize.ShloMosaic.Lib.ValueIdx
import proofs.«161213_j35476429865426_2_alg».proof.Proof.LibSoftmax

noncomputable section

namespace Cert.Attn

open Idealize.ShloMosaic Idealize.ShloMosaic.ValueIdx Cert.Lib.Softmax

/-- The scale on the scores: the binary fraction 1/8. -/
abbrev eighth : EReal := Ideal.ofBits .f32 0x3E000000#32

/-- The embedding of one item: column `h` of token `t` comes from the real half for `h < 128` and from the imaginary half
    otherwise, plus the positional entry. -/
def emb (xr xi : Fin 64 → Fin 128 → EReal) (pos : Fin 64 → Fin 256 → EReal) (t : Fin 64) (h : Fin 256) : EReal :=
  (if hh : h.val < 128 then xr t ⟨h.val, hh⟩ else xi t ⟨h.val - 128, by have := h.isLt; omega⟩) + pos t h

/-- A projection of the embedding: `(X · W) t d`. -/
def proj (X : Fin 64 → Fin 256 → EReal) (W : Fin 256 → Fin 256 → EReal) (t : Fin 64) (d : Fin 256) : EReal :=
  ∑ h : Fin 256, X t h * W h d

/-- The score of token `t` against token `s`: the inner product of query `t` and key `s`, times 1/8. -/
def score (X : Fin 64 → Fin 256 → EReal) (Qw Kw : Fin 256 → Fin 256 → EReal) (t s : Fin 64) : EReal :=
  (∑ d : Fin 256, proj X Qw t d * proj X Kw s d) * eighth

/-- First result: the rows of the embedding weighted by the scores' weights, plus the embedding. -/
def cau (X : Fin 64 → Fin 256 → EReal) (Qw Kw : Fin 256 → Fin 256 → EReal) (t : Fin 64) (d : Fin 256) : EReal :=
  (∑ s : Fin 64, soft (score X Qw Kw t) s * X s d) + X t d

/-- Second result: the rows of the embedding weighted by the weights of the NEGATED scores. -/
def spu (X : Fin 64 → Fin 256 → EReal) (Qw Kw : Fin 256 → Fin 256 → EReal) (t : Fin 64) (d : Fin 256) : EReal :=
  ∑ s : Fin 64, soft (fun s' => -score X Qw Kw t s') s * X s d

/-! ## The same over whole arrays: 4096 items -/

/-- Item `n`'s embedding read off the whole arrays: its real and imaginary halves, and the first 64 positional rows. -/
def embOf (a0 a1 : (⟨3, ![4096, 64, 128]⟩ : Shape).Idx → EReal) (a4 : (⟨2, ![100, 256]⟩ : Shape).Idx → EReal) (n : Fin 4096) :
    Fin 64 → Fin 256 → EReal :=
  emb (fun t h => a0 (ix3 n t h)) (fun t h => a1 (ix3 n t h))
    (fun t h => a4 (ix2 (⟨t.val, by have := t.isLt; omega⟩ : Fin 100) h))

/-- A 256 × 256 array as a matrix. -/
def matOf (w : (⟨2, ![256, 256]⟩ : Shape).Idx → EReal) : Fin 256 → Fin 256 → EReal := fun h d => w (ix2 h d)

/-- The first result over all items, index by index. -/
def Gcau (a0 a1 : (⟨3, ![4096, 64, 128]⟩ : Shape).Idx → EReal) (a2 a3 : (⟨2, ![256, 256]⟩ : Shape).Idx → EReal)
    (a4 : (⟨2, ![100, 256]⟩ : Shape).Idx → EReal) : (⟨3, ![4096, 64, 256]⟩ : Shape).Idx → EReal :=
  fun i => cau (embOf a0 a1 a4 (i 0)) (matOf a2) (matOf a3) (i 1) (i 2)

/-- The second result over all items, index by index. -/
def Gspu (a0 a1 : (⟨3, ![4096, 64, 128]⟩ : Shape).Idx → EReal) (a2 a3 : (⟨2, ![256, 256]⟩ : Shape).Idx → EReal)
    (a4 : (⟨2, ![100, 256]⟩ : Shape).Idx → EReal) : (⟨3, ![4096, 64, 256]⟩ : Shape).Idx → EReal :=
  fun i => spu (embOf a0 a1 a4 (i 0)) (matOf a2) (matOf a3) (i 1) (i 2)

/-! ## The constants, and the two laws that join the two spellings -/

/-- The pattern of `64.0` is the real number 64. -/
theorem ofBits_64 : Ideal.ofBits .f32 0x42800000#32 = ((64 : ℝ) : EReal) := by
  simp [Ideal.ofBits, Ideal.ieee, -EReal.coe_mul]; norm_num

/-- The pattern of `1.0` is the real number 1. -/
theorem ofBits_1 : Ideal.ofBits .f32 0x3F800000#32 = ((1 : ℝ) : EReal) := by
  simp [Ideal.ofBits, Ideal.ieee, -EReal.coe_mul]; norm_num

/-- The pattern of `0.125` is the real number 1/8. -/
theorem eighth_eq : eighth = (((1 : ℝ) / 8 : ℝ) : EReal) := by
  simp [eighth, Ideal.ofBits, Ideal.ieee, -EReal.coe_mul]; norm_num

/-- √64 = 8 on the extended reals. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- A quotient by √64 and then by 1 is a product with 1/8, on every extended real. -/
theorem div_sqrt64_div_one (x : EReal) :
    Ideal.div (Ideal.div x (Ideal.sqrt (Ideal.ofBits .f32 0x42800000#32))) (Ideal.ofBits .f32 0x3F800000#32) = x * eighth := by
  rw [ofBits_64, sqrt_64, ofBits_1, Ideal.div_coe (by norm_num : (8 : ℝ) ≠ 0), Ideal.div_coe (by norm_num : (1 : ℝ) ≠ 0), eighth_eq]
  rw [show ((1 : ℝ) / 1 : ℝ) = 1 by norm_num, EReal.coe_one, mul_one]

/-- Zero less `x` is `-x`, on every extended real. -/
theorem zero_sub' (x : EReal) : Ideal.ofBits .f32 0x00000000#32 - x = -x := by
  rw [Ideal.ofBits_zero_f32, zero_sub]

end Cert.Attn

end
-- ==== Proof.LibDense.lean ====
/-
  A plain matrix product read at an index.

  For `l : [A, K]` and `r : [K, B]` the product with dimension numbers "contract axis 1 of the left with axis 0 of the
  right, no batch axes" — what `jnp.dot` of two matrices lowers to, on the matrix unit (into a zero accumulator) and on
  the host alike — is, at the ideal instance and at the element `(a, b)`, the exact sum over `k` of
  `l (a, k) · r (k, b)`. General in `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.Dense

open Idealize.ShloMosaic Idealize.ShloMosaic.ValueIdx

/-- The dimension numbers of `l @ r` for `l : [A, K]`, `r : [K, B]`. -/
abbrev denseDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

section
variable {A K B : Nat} (wf : DotDims.WF ⟨2, ![A, K]⟩ ⟨2, ![K, B]⟩ ⟨2, ![A, B]⟩ [1] [0] [0] [1] [] [])

/-- The left operand's row is the result's row … -/
theorem dense_lhs0 (i : (⟨2, ![A, B]⟩ : Shape).Idx) (q : (denseDims A K B wf).contr.Idx) :
    ((denseDims A K B wf).lhsIdx i q 0).val = (i 0).val := by
  unfold DotDims.lhsIdx
  rw [dif_neg (show ¬(0 : Fin 2) ∈ (denseDims A K B wf).lhsBatch from List.not_mem_nil),
    dif_pos (show (0 : Fin 2) ∈ (denseDims A K B wf).lhsNonContracting from List.mem_singleton.mpr rfl)]
  rfl

/-- … and its column the contraction coordinate. -/
theorem dense_lhs1 (i : (⟨2, ![A, B]⟩ : Shape).Idx) (q : (denseDims A K B wf).contr.Idx) :
    ((denseDims A K B wf).lhsIdx i q 1).val = (q ⟨0, (Nat.one_pos : 0 < 1)⟩).val :=
  (denseDims A K B wf).lhsIdx_val_of_single rfl i q

/-- The right operand's row is the contraction coordinate … -/
theorem dense_rhs0 (i : (⟨2, ![A, B]⟩ : Shape).Idx) (q : (denseDims A K B wf).contr.Idx) :
    ((denseDims A K B wf).rhsIdx i q 0).val = (q ⟨0, (Nat.one_pos : 0 < 1)⟩).val :=
  (denseDims A K B wf).rhsIdx_val_of_single rfl i q

/-- … and its column the result's column. -/
theorem dense_rhs1 (i : (⟨2, ![A, B]⟩ : Shape).Idx) (q : (denseDims A K B wf).contr.Idx) :
    ((denseDims A K B wf).rhsIdx i q 1).val = (i 1).val := by
  unfold DotDims.rhsIdx
  rw [dif_neg (show ¬(1 : Fin 2) ∈ (denseDims A K B wf).rhsBatch from List.not_mem_nil),
    dif_pos (show (1 : Fin 2) ∈ (denseDims A K B wf).rhsNonContracting from List.mem_singleton.mpr rfl)]
  rfl

/-- The contraction's sum, re-indexed by its one coordinate. -/
theorem dense_sum {φ₁ φ₂ : FTy} (l : FVec Ideal ⟨2, ![A, K]⟩ φ₁) (r : FVec Ideal ⟨2, ![K, B]⟩ φ₂) (a : Fin A) (b : Fin B) :
    (∑ q : (denseDims A K B wf).contr.Idx,
        l ((denseDims A K B wf).lhsIdx (ix2 a b) q) * r ((denseDims A K B wf).rhsIdx (ix2 a b) q))
      = ∑ k : Fin K, l (ix2 a k) * r (ix2 k b) := by
  rw [← Equiv.sum_comp (contrEquiv1 (denseDims A K B wf) K rfl rfl).symm]
  refine Finset.sum_congr rfl fun k _ => ?_
  have hk := contrEquiv1_symm_val (denseDims A K B wf) K rfl rfl k
  have el : (denseDims A K B wf).lhsIdx (ix2 a b) ((contrEquiv1 (denseDims A K B wf) K rfl rfl).symm k) = ix2 a k :=
    funext fun x => Fin.ext (by
      match x with
      | ⟨0, _⟩ => exact dense_lhs0 wf _ _
      | ⟨1, _⟩ => exact (dense_lhs1 wf _ _).trans hk)
  have er : (denseDims A K B wf).rhsIdx (ix2 a b) ((contrEquiv1 (denseDims A K B wf) K rfl rfl).symm k) = ix2 k b :=
    funext fun x => Fin.ext (by
      match x with
      | ⟨0, _⟩ => exact (dense_rhs0 wf _ _).trans hk
      | ⟨1, _⟩ => exact dense_rhs1 wf _ _)
  rw [el, er]

/-- THE MATRIX UNIT'S PRODUCT into a zero accumulator, read at `(a, b)`. -/
theorem dense_matmul_apply {φ₁ φ₂ : FTy} (prec : Option ContractPrecision)
    (l : FVec Ideal ⟨2, ![A, K]⟩ φ₁) (r : FVec Ideal ⟨2, ![K, B]⟩ φ₂) (a : Fin A) (b : Fin B) :
    FloatOps.matmul (denseDims A K B wf) prec l r (constant (F := Ideal) ⟨2, ![A, B]⟩ .f32 0x00000000#32) (ix2 a b)
      = ∑ k : Fin K, l (ix2 a k) * r (ix2 k b) := by
  rw [Ideal.matmul_constant_zero_apply]
  exact dense_sum wf l r a b

/-- THE HOST'S PRODUCT, read at `(a, b)`. -/
theorem dense_dotGeneral_apply {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (denseDims A K B wf) prec sched l r (ix2 a b) = ∑ k : Fin K, l (ix2 a k) * r (ix2 k b) := by
  rw [Ideal.dotGeneral_apply]
  exact dense_sum wf l r a b

end

end Cert.Lib.Dense

end
-- ==== Proof.LibBatchedDot.lean ====
/-
  Batched matrix products read at an index.

  Two families of dimension numbers over a leading batch axis `g`:
  * `l : [G, A, K]`, `r : [G, B, K]` contracted on their last axes — per batch entry the product `l · rᵀ`:
    the element `(g, a, b)` is the sum over `k` of `l (g, a, k) · r (g, b, k)`;
  * `l : [G, A, K]`, `r : [G, K, B]` contracted on the left's last and the right's middle axis — per batch entry the
    plain product `l · r`: the element `(g, a, b)` is the sum over `k` of `l (g, a, k) · r (g, k, b)`.
  Both on the matrix unit (into a zero accumulator) and on the host, at the ideal instance, where the product is the
  exact sum. General in `G`, `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.BatchedDot

open Idealize.ShloMosaic Idealize.ShloMosaic.ValueIdx

/-! ## `l · rᵀ` per batch entry -/

/-- The dimension numbers of the batched `l · rᵀ`. -/
abbrev ntDims (G A K B : Nat)
    (wf : DotDims.WF ⟨3, ![G, A, K]⟩ ⟨3, ![G, B, K]⟩ ⟨3, ![G, A, B]⟩ [2] [2] [1] [1] [0] [0]) :
    DotDims ⟨3, ![G, A, K]⟩ ⟨3, ![G, B, K]⟩ ⟨3, ![G, A, B]⟩ where
  lhsContracting := [2]
  rhsContracting := [2]
  lhsNonContracting := [1]
  rhsNonContracting := [1]
  lhsBatch := [0]
  rhsBatch := [0]
  wf := wf

section
variable {G A K B : Nat} (wf : DotDims.WF ⟨3, ![G, A, K]⟩ ⟨3, ![G, B, K]⟩ ⟨3, ![G, A, B]⟩ [2] [2] [1] [1] [0] [0])

theorem nt_lhs0 (i : (⟨3, ![G, A, B]⟩ : Shape).Idx) (q : (ntDims G A K B wf).contr.Idx) :
    ((ntDims G A K B wf).lhsIdx i q 0).val = (i 0).val := by
  unfold DotDims.lhsIdx
  rw [dif_pos (show (0 : Fin 3) ∈ (ntDims G A K B wf).lhsBatch from List.mem_singleton.mpr rfl)]
  rfl

theorem nt_lhs1 (i : (⟨3, ![G, A, B]⟩ : Shape).Idx) (q : (ntDims G A K B wf).contr.Idx) :
    ((ntDims G A K B wf).lhsIdx i q 1).val = (i 1).val := by
  unfold DotDims.lhsIdx
  rw [dif_neg (show ¬(1 : Fin 3) ∈ (ntDims G A K B wf).lhsBatch from (by decide : ¬(1 : Fin 3) ∈ ([0] : List (Fin 3)))),
    dif_pos (show (1 : Fin 3) ∈ (ntDims G A K B wf).lhsNonContracting from List.mem_singleton.mpr rfl)]
  rfl

theorem nt_lhs2 (i : (⟨3, ![G, A, B]⟩ : Shape).Idx) (q : (ntDims G A K B wf).contr.Idx) :
    ((ntDims G A K B wf).lhsIdx i q 2).val = (q ⟨0, (Nat.one_pos : 0 < 1)⟩).val :=
  (ntDims G A K B wf).lhsIdx_val_of_single rfl i q

theorem nt_rhs0 (i : (⟨3, ![G, A, B]⟩ : Shape).Idx) (q : (ntDims G A K B wf).contr.Idx) :
    ((ntDims G A K B wf).rhsIdx i q 0).val = (i 0).val := by
  unfold DotDims.rhsIdx
  rw [dif_pos (show (0 : Fin 3) ∈ (ntDims G A K B wf).rhsBatch from List.mem_singleton.mpr rfl)]
  rfl

theorem nt_rhs1 (i : (⟨3, ![G, A, B]⟩ : Shape).Idx) (q : (ntDims G A K B wf).contr.Idx) :
    ((ntDims G A K B wf).rhsIdx i q 1).val = (i 2).val := by
  unfold DotDims.rhsIdx
  rw [dif_neg (show ¬(1 : Fin 3) ∈ (ntDims G A K B wf).rhsBatch from (by decide : ¬(1 : Fin 3) ∈ ([0] : List (Fin 3)))),
    dif_pos (show (1 : Fin 3) ∈ (ntDims G A K B wf).rhsNonContracting from List.mem_singleton.mpr rfl)]
  rfl

theorem nt_rhs2 (i : (⟨3, ![G, A, B]⟩ : Shape).Idx) (q : (ntDims G A K B wf).contr.Idx) :
    ((ntDims G A K B wf).rhsIdx i q 2).val = (q ⟨0, (Nat.one_pos : 0 < 1)⟩).val :=
  (ntDims G A K B wf).rhsIdx_val_of_single rfl i q

/-- The contraction's sum, re-indexed by its one coordinate. -/
theorem nt_sum {φ₁ φ₂ : FTy} (l : FVec Ideal ⟨3, ![G, A, K]⟩ φ₁) (r : FVec Ideal ⟨3, ![G, B, K]⟩ φ₂)
    (g : Fin G) (a : Fin A) (b : Fin B) :
    (∑ q : (ntDims G A K B wf).contr.Idx,
        l ((ntDims G A K B wf).lhsIdx (ix3 g a b) q) * r ((ntDims G A K B wf).rhsIdx (ix3 g a b) q))
      = ∑ k : Fin K, l (ix3 g a k) * r (ix3 g b k) := by
  rw [← Equiv.sum_comp (contrEquiv1 (ntDims G A K B wf) K rfl rfl).symm]
  refine Finset.sum_congr rfl fun k _ => ?_
  have hk := contrEquiv1_symm_val (ntDims G A K B wf) K rfl rfl k
  have el : (ntDims G A K B wf).lhsIdx (ix3 g a b) ((contrEquiv1 (ntDims G A K B wf) K rfl rfl).symm k) = ix3 g a k :=
    funext fun x => Fin.ext (by
      match x with
      | ⟨0, _⟩ => exact nt_lhs0 wf _ _
      | ⟨1, _⟩ => exact nt_lhs1 wf _ _
      | ⟨2, _⟩ => exact (nt_lhs2 wf _ _).trans hk)
  have er : (ntDims G A K B wf).rhsIdx (ix3 g a b) ((contrEquiv1 (ntDims G A K B wf) K rfl rfl).symm k) = ix3 g b k :=
    funext fun x => Fin.ext (by
      match x with
      | ⟨0, _⟩ => exact nt_rhs0 wf _ _
      | ⟨1, _⟩ => exact nt_rhs1 wf _ _
      | ⟨2, _⟩ => exact (nt_rhs2 wf _ _).trans hk)
  rw [el, er]

/-- The matrix unit's batched `l · rᵀ` into a zero accumulator, read at `(g, a, b)`. -/
theorem nt_matmul_apply {φ₁ φ₂ : FTy} (prec : Option ContractPrecision)
    (l : FVec Ideal ⟨3, ![G, A, K]⟩ φ₁) (r : FVec Ideal ⟨3, ![G, B, K]⟩ φ₂) (g : Fin G) (a : Fin A) (b : Fin B) :
    FloatOps.matmul (ntDims G A K B wf) prec l r (constant (F := Ideal) ⟨3, ![G, A, B]⟩ .f32 0x00000000#32) (ix3 g a b)
      = ∑ k : Fin K, l (ix3 g a k) * r (ix3 g b k) := by
  rw [Ideal.matmul_constant_zero_apply]
  exact nt_sum wf l r g a b

/-- The host's batched `l · rᵀ`, read at `(g, a, b)`. -/
theorem nt_dotGeneral_apply {φ₁ φ₂ : FTy} (prec : Option ContractPrecision) (sched : HostSchedule)
    (l : FVec Ideal ⟨3, ![G, A, K]⟩ φ₁) (r : FVec Ideal ⟨3, ![G, B, K]⟩ φ₂) (g : Fin G) (a : Fin A) (b : Fin B) :
    FloatOps.dotGeneral (ntDims G A K B wf) prec sched l r (ix3 g a b) = ∑ k : Fin K, l (ix3 g a k) * r (ix3 g b k) := by
  rw [Ideal.dotGeneral_apply]
  exact nt_sum wf l r g a b

end

/-! ## `l · r` per batch entry -/

/-- The dimension numbers of the batched `l · r`. -/
abbrev nnDims (G A K B : Nat)
    (wf : DotDims.WF ⟨3, ![G, A, K]⟩ ⟨3, ![G, K, B]⟩ ⟨3, ![G, A, B]⟩ [2] [1] [1] [2] [0] [0]) :
    DotDims ⟨3, ![G, A, K]⟩ ⟨3, ![G, K, B]⟩ ⟨3, ![G, A, B]⟩ where
  lhsContracting := [2]
  rhsContracting := [1]
  lhsNonContracting := [1]
  rhsNonContracting := [2]
  lhsBatch := [0]
  rhsBatch := [0]
  wf := wf

section
variable {G A K B : Nat} (wf : DotDims.WF ⟨3, ![G, A, K]⟩ ⟨3, ![G, K, B]⟩ ⟨3, ![G, A, B]⟩ [2] [1] [1] [2] [0] [0])

theorem nn_lhs0 (i : (⟨3, ![G, A, B]⟩ : Shape).Idx) (q : (nnDims G A K B wf).contr.Idx) :
    ((nnDims G A K B wf).lhsIdx i q 0).val = (i 0).val := by
  unfold DotDims.lhsIdx
  rw [dif_pos (show (0 : Fin 3) ∈ (nnDims G A K B wf).lhsBatch from List.mem_singleton.mpr rfl)]
  rfl

theorem nn_lhs1 (i : (⟨3, ![G, A, B]⟩ : Shape).Idx) (q : (nnDims G A K B wf).contr.Idx) :
    ((nnDims G A K B wf).lhsIdx i q 1).val = (i 1).val := by
  unfold DotDims.lhsIdx
  rw [dif_neg (show ¬(1 : Fin 3) ∈ (nnDims G A K B wf).lhsBatch from (by decide : ¬(1 : Fin 3) ∈ ([0] : List (Fin 3)))),
    dif_pos (show (1 : Fin 3) ∈ (nnDims G A K B wf).lhsNonContracting from List.mem_singleton.mpr rfl)]
  rfl

theorem nn_lhs2 (i : (⟨3, ![G, A, B]⟩ : Shape).Idx) (q : (nnDims G A K B wf).contr.Idx) :
    ((nnDims G A K B wf).lhsIdx i q 2).val = (q ⟨0, (Nat.one_pos : 0 < 1)⟩).val :=
  (nnDims G A K B wf).lhsIdx_val_of_single rfl i q

theorem nn_rhs0 (i : (⟨3, ![G, A, B]⟩ : Shape).Idx) (q : (nnDims G A K B wf).contr.Idx) :
    ((nnDims G A K B wf).rhsIdx i q 0).val = (i 0).val := by
  unfold DotDims.rhsIdx
  rw [dif_pos (show (0 : Fin 3) ∈ (nnDims G A K B wf).rhsBatch from List.mem_singleton.mpr rfl)]
  rfl

theorem nn_rhs1 (i : (⟨3, ![G, A, B]⟩ : Shape).Idx) (q : (nnDims G A K B wf).contr.Idx) :
    ((nnDims G A K B wf).rhsIdx i q 1).val = (q ⟨0, (Nat.one_pos : 0 < 1)⟩).val :=
  (nnDims G A K B wf).rhsIdx_val_of_single rfl i q

theorem nn_rhs2 (i : (⟨3, ![G, A, B]⟩ : Shape).Idx) (q : (nnDims G A K B wf).contr.Idx) :
    ((nnDims G A K B wf).rhsIdx i q 2).val = (i 2).val := by
  unfold DotDims.rhsIdx
  rw [dif_neg (show ¬(2 : Fin 3) ∈ (nnDims G A K B wf).rhsBatch from (by decide : ¬(2 : Fin 3) ∈ ([0] : List (Fin 3)))),
    dif_pos (show (2 : Fin 3) ∈ (nnDims G A K B wf).rhsNonContracting from List.mem_singleton.mpr rfl)]
  rfl

/-- The contraction's sum, re-indexed by its one coordinate. -/
theorem nn_sum {φ₁ φ₂ : FTy} (l : FVec Ideal ⟨3, ![G, A, K]⟩ φ₁) (r : FVec Ideal ⟨3, ![G, K, B]⟩ φ₂)
    (g : Fin G) (a : Fin A) (b : Fin B) :
    (∑ q : (nnDims G A K B wf).contr.Idx,
        l ((nnDims G A K B wf).lhsIdx (ix3 g a b) q) * r ((nnDims G A K B wf).rhsIdx (ix3 g a b) q))
      = ∑ k : Fin K, l (ix3 g a k) * r (ix3 g k b) := by
  rw [← Equiv.sum_comp (contrEquiv1 (nnDims G A K B wf) K rfl rfl).symm]
  refine Finset.sum_congr rfl fun k _ => ?_
  have hk := contrEquiv1_symm_val (nnDims G A K B wf) K rfl rfl k
  have el : (nnDims G A K B wf).lhsIdx (ix3 g a b) ((contrEquiv1 (nnDims G A K B wf) K rfl rfl).symm k) = ix3 g a k :=
    funext fun x => Fin.ext (by
      match x with
      | ⟨0, _⟩ => exact nn_lhs0 wf _ _
      | ⟨1, _⟩ => exact nn_lhs1 wf _ _
      | ⟨2, _⟩ => exact (nn_lhs2 wf _ _).trans hk)
  have er : (nnDims G A K B wf).rhsIdx (ix3 g a b) ((contrEquiv1 (nnDims G A K B wf) K rfl rfl).symm k) = ix3 g k b :=
    funext fun x => Fin.ext (by
      match x with
      | ⟨0, _⟩ => exact nn_rhs0 wf _ _
      | ⟨1, _⟩ => exact (nn_rhs1 wf _ _).trans hk
      | ⟨2, _⟩ => exact nn_rhs2 wf _ _)
  rw [el, er]

/-- The matrix unit's batched `l · r` into a zero accumulator, read at `(g, a, b)`. -/
theorem nn_matmul_apply {φ₁ φ₂ : FTy} (prec : Option ContractPrecision)
    (l : FVec Ideal ⟨3, ![G, A, K]⟩ φ₁) (r : FVec Ideal ⟨3, ![G, K, B]⟩ φ₂) (g : Fin G) (a : Fin A) (b : Fin B) :
    FloatOps.matmul (nnDims G A K B wf) prec l r (constant (F := Ideal) ⟨3, ![G, A, B]⟩ .f32 0x00000000#32) (ix3 g a b)
      = ∑ k : Fin K, l (ix3 g a k) * r (ix3 g k b) := by
  rw [Ideal.matmul_constant_zero_apply]
  exact nn_sum wf l r g a b

/-- The host's batched `l · r`, read at `(g, a, b)`. -/
theorem nn_dotGeneral_apply {φ₁ φ₂ : FTy} (prec : Option ContractPrecision) (sched : HostSchedule)
    (l : FVec Ideal ⟨3, ![G, A, K]⟩ φ₁) (r : FVec Ideal ⟨3, ![G, K, B]⟩ φ₂) (g : Fin G) (a : Fin A) (b : Fin B) :
    FloatOps.dotGeneral (nnDims G A K B wf) prec sched l r (ix3 g a b) = ∑ k : Fin K, l (ix3 g a k) * r (ix3 g k b) := by
  rw [Ideal.dotGeneral_apply]
  exact nn_sum wf l r g a b

end

end Cert.Lib.BatchedDot

end
-- ==== Proof.KerItem.lean ====
/-
  One entry of a block, through the kernel's body.

  The body loads a block of 32 items' real halves `P0` and imaginary halves `P1` (32 × 64 × 128 each), the positional
  rows `P2` (64 × 256) and the two projection matrices side by side `P3` (256 × 512: columns 0..255 the query
  matrix, columns 256..511 the key matrix). For entry `b` of the block every value it computes is the item
  mathematics of `Spec` applied to entry `b`'s rows:
  * the joined halves plus the positional rows are the embedding `X b`;
  * the one fused projection `[2048, 256] · [256, 512]` (rows `b·64 + t`), split into its two column halves, gives
    the queries and keys, and their batched product times 1/8 the scores;
  * the two normalisations are `soft` of the score rows and of their negatives (`0 − x = −x`);
  * the two weight blocks stacked along the token axis and multiplied with the embedding give, in the upper half, the
    first result less the embedding, and in the lower half the second result.
-/
import proofs.«161213_j35476429865426_2_alg».proof.Proof.Gen.KernelIdeal.Skeleton
import proofs.«161213_j35476429865426_2_alg».proof.Proof.Spec
import proofs.«161213_j35476429865426_2_alg».proof.Proof.LibDense
import proofs.«161213_j35476429865426_2_alg».proof.Proof.LibBatchedDot
import proofs.«161213_j35476429865426_2_alg».proof.Proof.LibLayout3
import proofs.«161213_j35476429865426_2_alg».proof.Proof.LibSoftmax
import Idealize.ShloMosaic.Lib.ValueLayout
import Idealize.ShloMosaic.Lib.ValueIdx
import Idealize.ShloMosaic.Lib.Pipeline.Value

noncomputable section

open scoped BigOperators

namespace Cert.KernelIdeal.Item

open Cert.KernelIdeal Cert.KernelIdeal.Gen
open Idealize.ShloMosaic Idealize.ShloMosaic.TcCoe Idealize.ShloMosaic.ValueIdx
open Cert.Lib Cert.Lib.Softmax Cert.Attn

variable (P0 P1 : Vec Ideal S32x64x128 .f32) (P2 : Vec Ideal S64x256 .f32) (P3 : Vec Ideal S256x512 .f32)

/-- Entry `b`'s embedding. -/
def X (b : Fin 32) : Fin 64 → Fin 256 → EReal :=
  emb (fun t h => P0 (ix3 b t h)) (fun t h => P1 (ix3 b t h)) (fun t h => P2 (ix2 t h))

/-- The query matrix: the left 256 columns of the fused weight. -/
def Wq : Fin 256 → Fin 256 → EReal := fun h d => P3 (ix2 h (⟨d.val, by have := d.isLt; omega⟩ : Fin 512))

/-- The key matrix: the right 256 columns of the fused weight. -/
def Wk : Fin 256 → Fin 256 → EReal := fun h d => P3 (ix2 h (⟨256 + d.val, by have := d.isLt; omega⟩ : Fin 512))

/-! ## The embedding -/

/-- The joined halves plus the positional rows, at `(b, t, h)`. -/
theorem pay4_apply (b : Fin 32) (t : Fin 64) (h : Fin 256) :
    k0_pay4 P0 P1 P2 (ix3 b t h) = X P0 P1 P2 b t h := by
  have e1 := Layout3.concat_axis2_apply (α := EReal) P0 P1 concatenates_S32x64x128_S32x64x128_S32x64x256_d2 rfl b t h
  have e2 : (broadcastTo S32x64x256 (shapeCast S1x64x256 (shapeCast S64x256 P2 shapeCasts_S64x256_S64x256)
      shapeCasts_S64x256_S1x64x256) broadcasts_S1x64x256_S32x64x256) (ix3 b t h) = P2 (ix2 t h) :=
    (Layout3.broadcastTo_1bc_abc_apply _ broadcasts_S1x64x256_S32x64x256 b t h).trans
      ((shapeCast_ab_1ab_apply _ shapeCasts_S64x256_S1x64x256 0 t h).trans
        (congrFun (shapeCast_self P2 shapeCasts_S64x256_S64x256) _))
  exact congrArg₂ (· + ·) e1 e2

/-- The same narrowed to bf16: a change of format is the identity on the extended reals. -/
theorem pay5_apply (b : Fin 32) (t : Fin 64) (h : Fin 256) :
    k0_pay5 P0 P1 P2 (ix3 b t h) = X P0 P1 P2 b t h :=
  pay4_apply P0 P1 P2 b t h

/-! ## The fused projection and the scores -/

/-- The fused projection of any block `Xv` by any `[256, 512]` weight, seen again as `[32, 64, 512]`: at `(b, t, e)`
    the sum over `h` of `Xv (b, t, h) · W (h, e)`. -/
theorem fused_proj_apply (Xv : FVec Ideal S32x64x256 .bf16) (W : Vec Ideal S256x512 .f32) (b : Fin 32) (t : Fin 64) (e : Fin 512) :
    (truncf .bf16 (shapeCast S32x64x512 (matmul dot_S2048x256_S256x512_S2048x512_1_0_0_1_n_n none
        (shapeCast S2048x256 Xv shapeCasts_S32x64x256_S2048x256)
        (truncf .bf16 (shapeCast S256x512 W shapeCasts_S256x512_S256x512) bitsLt_bf16_f32)
        (constant S2048x512 .f32 0x00000000#32)) shapeCasts_S2048x512_S32x64x512) bitsLt_bf16_f32) (ix3 b t e)
      = ∑ h : Fin 256, Xv (ix3 b t h) * W (ix2 h e) := by
  have hr : b.val * 64 + t.val < 2048 := by have := b.isLt; have := t.isLt; omega
  refine (truncf_apply _ bitsLt_bf16_f32 (ix3 b t e)).trans ?_
  refine (Layout3.shapeCast_rc_abc_apply _ shapeCasts_S2048x512_S32x64x512 b t e (⟨b.val * 64 + t.val, hr⟩ : Fin 2048) rfl).trans ?_
  refine (Dense.dense_matmul_apply dot_S2048x256_S256x512_S2048x512_1_0_0_1_n_n_wf none _ _ (⟨b.val * 64 + t.val, hr⟩ : Fin 2048) e).trans ?_
  refine Finset.sum_congr rfl fun h _ => congrArg₂ (· * ·) ?_ ?_
  · exact Layout3.shapeCast_abc_rc_apply Xv shapeCasts_S32x64x256_S2048x256 b t h (⟨b.val * 64 + t.val, hr⟩ : Fin 2048) rfl
  · exact congrFun (shapeCast_self W shapeCasts_S256x512_S256x512) _

/-- The batched product of queries and keys times 1/8, at `(b, t, s)`. -/
theorem scaled_scores_apply (Qv Kv : FVec Ideal S32x64x256 .bf16) (b : Fin 32) (t s : Fin 64) :
    (mulf (matmul dot_S32x64x256_S32x64x256_S32x64x64_2_2_1_1_0_0 none Qv Kv (constant S32x64x64 .f32 0x00000000#32))
        (broadcast S32x64x64 (Scalar.ofBits .f32 0x3E000000#32))) (ix3 b t s)
      = (∑ d : Fin 256, Qv (ix3 b t d) * Kv (ix3 b s d)) * eighth :=
  congrArg (· * eighth)
    (BatchedDot.nt_matmul_apply dot_S32x64x256_S32x64x256_S32x64x64_2_2_1_1_0_0_wf none Qv Kv b t s)

/-- THE SCORES of entry `b`. -/
theorem pay6_apply (b : Fin 32) (t s : Fin 64) :
    k0_pay6 P0 P1 P2 P3 (ix3 b t s) = score (X P0 P1 P2 b) (Wq P3) (Wk P3) t s := by
  unfold k0_pay6
  refine (scaled_scores_apply _ _ b t s).trans ?_
  unfold score
  refine congrArg (· * eighth) (Finset.sum_congr rfl fun d _ => congrArg₂ (· * ·) ?_ ?_)
  · refine (Layout3.slice_axis2_apply 0 _ slices_S32x64x512_o0_0_0_S32x64x256 b t d
      (⟨d.val, by have := d.isLt; omega⟩ : Fin 512) (Nat.zero_add _).symm).trans ?_
    refine (fused_proj_apply _ P3 b t _).trans ?_
    exact Finset.sum_congr rfl fun h _ => congrArg₂ (· * ·) (pay5_apply P0 P1 P2 b t h) rfl
  · refine (Layout3.slice_axis2_apply 256 _ slices_S32x64x512_o0_0_256_S32x64x256 b s d
      (⟨256 + d.val, by have := d.isLt; omega⟩ : Fin 512) rfl).trans ?_
    refine (fused_proj_apply _ P3 b s _).trans ?_
    exact Finset.sum_congr rfl fun h _ => congrArg₂ (· * ·) (pay5_apply P0 P1 P2 b s h) rfl

/-! ## The two normalisations -/

/-- The weights of the scores. -/
theorem pay7_apply (b : Fin 32) (t s : Fin 64) :
    k0_pay7 P0 P1 P2 P3 (ix3 b t s) = soft (score (X P0 P1 P2 b) (Wq P3) (Wk P3) t) s := by
  unfold k0_pay7
  refine (Softmax.kernel_soft_apply (k0_pay6 P0 P1 P2 P3) reduces_S32x64x64_S32x64 (.inl rfl) rfl rfl
    shapeCasts_S32x64_S32x64x1 broadcasts_S32x64x1_S32x64x64 b t s).trans ?_
  exact congrArg (fun S => soft S s) (funext fun s' => pay6_apply P0 P1 P2 P3 b t s')

/-- The negated scores. -/
theorem pay8_apply (b : Fin 32) (t s : Fin 64) :
    k0_pay8 P0 P1 P2 P3 (ix3 b t s) = -score (X P0 P1 P2 b) (Wq P3) (Wk P3) t s := by
  unfold k0_pay8
  show Ideal.ofBits .f32 0x00000000#32 - k0_pay6 P0 P1 P2 P3 (ix3 b t s) = _
  rw [zero_sub', pay6_apply]

/-! ## The stacked weights times the embedding -/

/-- The last product, for any value block `v8`, any upper weight block `v32` and any block `v34` whose rows are
    normalised inside it: the upper 64 rows are `v32 · v8`, the lower 64 rows `soft v34 · v8`, per entry. -/
theorem pay1_upper (v8 : FVec Ideal S32x64x256 .bf16) (v32 : FVec Ideal S32x64x64 .bf16) (v34 : FVec Ideal S32x64x64 .f32)
    (b : Fin 32) (t : Fin 64) (d : Fin 256) :
    k0_pay1 v8 v32 v34 (broadcastTo S32x64x64 (shapeCast S32x64x1 (maximumf (broadcast S32x64 (Scalar.ofBits .f32 0xFF800000#32)) (multiReduction .maximumf [2] S32x64 v34 0xFF800000#32 reduces_S32x64x64_S32x64 (.inl rfl) rfl)) shapeCasts_S32x64_S32x64x1) broadcasts_S32x64x1_S32x64x64) (ix3 b (⟨t.val, by have := t.isLt; omega⟩ : Fin 128) d)
      = ∑ s : Fin 64, v32 (ix3 b t s) * v8 (ix3 b s d) := by
  unfold k0_pay1
  refine (BatchedDot.nn_matmul_apply dot_S32x128x64_S32x64x256_S32x128x256_2_1_1_2_0_0_wf none _ v8 b _ d).trans ?_
  refine Finset.sum_congr rfl fun s _ => congrArg (· * v8 (ix3 b s d)) ?_
  refine (Layout3.concat_axis1_apply (α := EReal) v32 _ concatenates_S32x64x64_S32x64x64_S32x128x64_d1 rfl b _ s).trans ?_
  exact dif_pos t.isLt

theorem pay1_lower (v8 : FVec Ideal S32x64x256 .bf16) (v32 : FVec Ideal S32x64x64 .bf16) (v34 : FVec Ideal S32x64x64 .f32)
    (b : Fin 32) (t : Fin 64) (d : Fin 256) :
    k0_pay1 v8 v32 v34 (broadcastTo S32x64x64 (shapeCast S32x64x1 (maximumf (broadcast S32x64 (Scalar.ofBits .f32 0xFF800000#32)) (multiReduction .maximumf [2] S32x64 v34 0xFF800000#32 reduces_S32x64x64_S32x64 (.inl rfl) rfl)) shapeCasts_S32x64_S32x64x1) broadcasts_S32x64x1_S32x64x64) (ix3 b (⟨64 + t.val, by have := t.isLt; omega⟩ : Fin 128) d)
      = ∑ s : Fin 64, soft (fun s' => v34 (ix3 b t s')) s * v8 (ix3 b s d) := by
  unfold k0_pay1
  refine (BatchedDot.nn_matmul_apply dot_S32x128x64_S32x64x256_S32x128x256_2_1_1_2_0_0_wf none _ v8 b _ d).trans ?_
  refine Finset.sum_congr rfl fun s _ => congrArg (· * v8 (ix3 b s d)) ?_
  refine (Layout3.concat_axis1_apply (α := EReal) v32 _ concatenates_S32x64x64_S32x64x64_S32x128x64_d1 rfl b _ s).trans ?_
  rw [dif_neg (by show ¬ (64 + t.val < 64); omega)]
  have ht : (⟨64 + t.val - 64, by have := t.isLt; omega⟩ : Fin 64) = t := Fin.ext (by show 64 + t.val - 64 = t.val; omega)
  rw [ht]
  exact Softmax.kernel_soft_apply v34 reduces_S32x64x64_S32x64 (.inl rfl) rfl rfl
    shapeCasts_S32x64_S32x64x1 broadcasts_S32x64x1_S32x64x64 b t s

/-! ## The two stored blocks -/

/-- THE FIRST STORED BLOCK at `(b, t, d)` is the first result of entry `b`. -/
theorem store4_apply (b : Fin 32) (t : Fin 64) (d : Fin 256) :
    k0_pay2 (k0_pay4 P0 P1 P2) (k0_pay5 P0 P1 P2) (k0_pay7 P0 P1 P2 P3) (k0_pay8 P0 P1 P2 P3) (k0_pay9 P0 P1 P2 P3) (ix3 b t d)
      = cau (X P0 P1 P2 b) (Wq P3) (Wk P3) t d := by
  unfold k0_pay2 cau
  refine congrArg₂ (· + ·) ?_ (pay4_apply P0 P1 P2 b t d)
  refine (slice3_axis1_apply 0 _ slices_S32x128x256_o0_0_0_S32x64x256 b t d
    (⟨t.val, by have := t.isLt; omega⟩ : Fin 128) (Nat.zero_add _).symm).trans ?_
  refine (pay1_upper (k0_pay5 P0 P1 P2) (k0_pay7 P0 P1 P2 P3) (k0_pay8 P0 P1 P2 P3) b t d).trans ?_
  exact Finset.sum_congr rfl fun s _ => congrArg₂ (· * ·) (pay7_apply P0 P1 P2 P3 b t s) (pay5_apply P0 P1 P2 b s d)

/-- THE SECOND STORED BLOCK at `(b, t, d)` is the second result of entry `b`. -/
theorem store5_apply (b : Fin 32) (t : Fin 64) (d : Fin 256) :
    k0_pay3 (k0_pay5 P0 P1 P2) (k0_pay7 P0 P1 P2 P3) (k0_pay8 P0 P1 P2 P3) (k0_pay9 P0 P1 P2 P3) (ix3 b t d)
      = spu (X P0 P1 P2 b) (Wq P3) (Wk P3) t d := by
  unfold k0_pay3 spu
  refine (slice3_axis1_apply 64 _ slices_S32x128x256_o0_64_0_S32x64x256 b t d
    (⟨64 + t.val, by have := t.isLt; omega⟩ : Fin 128) rfl).trans ?_
  refine (pay1_lower (k0_pay5 P0 P1 P2) (k0_pay7 P0 P1 P2 P3) (k0_pay8 P0 P1 P2 P3) b t d).trans ?_
  refine Finset.sum_congr rfl fun s _ => congrArg₂ (· * ·) ?_ (pay5_apply P0 P1 P2 b s d)
  exact congrArg (fun S => soft S s) (funext fun s' => pay8_apply P0 P1 P2 P3 b t s')

end Cert.KernelIdeal.Item

end
-- ==== Proof.Blocks.lean ====
/-
  From blocks to the whole arrays.

  The grid has 128 points; point `p` stages items `32·p … 32·p + 31` of the real and imaginary arrays, the whole fused
  weight (the query and key matrices side by side, joined by the host before the call) and the first 64 positional rows
  (cut by the host before the call), and writes back items `32·p … 32·p + 31` of each result. So entry `b` of the block
  at point `p` is item `32·p + b`, what the point writes back is block `p` of `Gcau` / `Gspu` of the argument arrays
  (`KerItem`: entry `b` of the stored block is the item mathematics of entry `b`), item `n` lies in the block of
  point `n / 32`, and the two result arrays end holding `Gcau` and `Gspu` of the arguments.
-/
import proofs.«161213_j35476429865426_2_alg».proof.Proof.Gen.KernelIdeal.Value
import proofs.«161213_j35476429865426_2_alg».proof.Proof.KerItem
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Item Cert.Attn Cert.Lib

/-! ## One stored block is a block of the whole-array function -/

/-- When entry `b` of the loaded blocks is item `32·p + b` of the arrays, its embedding is that item's. -/
theorem X_eq (P0 P1 : Vec Ideal S32x64x128 .f32) (P2 : Vec Ideal S64x256 .f32) (P3 : Vec Ideal S256x512 .f32) (A0 A1 : S4096x64x128.Idx → EReal) (A2 A3 : S256x256.Idx → EReal) (A4 : S100x256.Idx → EReal) (p : Nat)
    (h0 : ∀ (b : Fin 32) (t : Fin 64) (h : Fin 128) (n : Fin 4096), n.val = p * 32 + b.val → P0 (ix3 b t h) = A0 (ix3 n t h))
    (h1 : ∀ (b : Fin 32) (t : Fin 64) (h : Fin 128) (n : Fin 4096), n.val = p * 32 + b.val → P1 (ix3 b t h) = A1 (ix3 n t h))
    (h2 : ∀ (t : Fin 64) (h : Fin 256), P2 (ix2 t h) = A4 (ix2 (⟨t.val, by have := t.isLt; omega⟩ : Fin 100) h))
    (b : Fin 32) (n : Fin 4096) (hn : n.val = p * 32 + b.val) : X P0 P1 P2 b = embOf A0 A1 A4 n := by
  funext t h
  by_cases hh : h.val < 128
  · have e : X P0 P1 P2 b t h = P0 (ix3 b t ⟨h.val, hh⟩) + P2 (ix2 t h) := by unfold X emb; rw [dif_pos hh]
    have e' : embOf A0 A1 A4 n t h = A0 (ix3 n t ⟨h.val, hh⟩) + A4 (ix2 (⟨t.val, by have := t.isLt; omega⟩ : Fin 100) h) := by
      unfold embOf emb; rw [dif_pos hh]
    rw [e, e', h0 b t ⟨h.val, hh⟩ n hn, h2 t h]
  · have e : X P0 P1 P2 b t h = P1 (ix3 b t ⟨h.val - 128, by have := h.isLt; omega⟩) + P2 (ix2 t h) := by
      unfold X emb; rw [dif_neg hh]
    have e' : embOf A0 A1 A4 n t h = A1 (ix3 n t ⟨h.val - 128, by have := h.isLt; omega⟩)
        + A4 (ix2 (⟨t.val, by have := t.isLt; omega⟩ : Fin 100) h) := by
      unfold embOf emb; rw [dif_neg hh]
    rw [e, e', h1 b t ⟨h.val - 128, by have := h.isLt; omega⟩ n hn, h2 t h]

/-- The first stored block at `j` is `Gcau` at the array index `i` over it. -/
theorem block_cau (P0 P1 : Vec Ideal S32x64x128 .f32) (P2 : Vec Ideal S64x256 .f32) (P3 : Vec Ideal S256x512 .f32) (A0 A1 : S4096x64x128.Idx → EReal) (A2 A3 : S256x256.Idx → EReal) (A4 : S100x256.Idx → EReal) (p : Nat)
    (h0 : ∀ (b : Fin 32) (t : Fin 64) (h : Fin 128) (n : Fin 4096), n.val = p * 32 + b.val → P0 (ix3 b t h) = A0 (ix3 n t h))
    (h1 : ∀ (b : Fin 32) (t : Fin 64) (h : Fin 128) (n : Fin 4096), n.val = p * 32 + b.val → P1 (ix3 b t h) = A1 (ix3 n t h))
    (h2 : ∀ (t : Fin 64) (h : Fin 256), P2 (ix2 t h) = A4 (ix2 (⟨t.val, by have := t.isLt; omega⟩ : Fin 100) h))
    (hq : ∀ (h d : Fin 256), P3 (ix2 h (⟨d.val, by have := d.isLt; omega⟩ : Fin 512)) = A2 (ix2 h d))
    (hk : ∀ (h d : Fin 256), P3 (ix2 h (⟨256 + d.val, by have := d.isLt; omega⟩ : Fin 512)) = A3 (ix2 h d))
    (j : S32x64x256.Idx) (i : S4096x64x256.Idx) (hi0 : (i 0).val = p * 32 + (j 0).val) (hi1 : (i 1).val = (j 1).val)
    (hi2 : (i 2).val = (j 2).val) :
    k0_pay2 (k0_pay4 P0 P1 P2) (k0_pay5 P0 P1 P2) (k0_pay7 P0 P1 P2 P3) (k0_pay8 P0 P1 P2 P3) (k0_pay9 P0 P1 P2 P3) j = Gcau A0 A1 A2 A3 A4 i := by
  rw [eq_ix3 j]
  refine (store4_apply P0 P1 P2 P3 (j 0) (j 1) (j 2)).trans ?_
  show cau (X P0 P1 P2 (j 0)) (Wq P3) (Wk P3) (j 1) (j 2) = cau (embOf A0 A1 A4 (i 0)) (matOf A2) (matOf A3) (i 1) (i 2)
  have eq : Wq P3 = matOf A2 := funext fun h => funext fun d => hq h d
  have ek : Wk P3 = matOf A3 := funext fun h => funext fun d => hk h d
  have e1 : (j 1 : Fin 64) = i 1 := Fin.ext hi1.symm
  have e2 : (j 2 : Fin 256) = i 2 := Fin.ext hi2.symm
  rw [X_eq P0 P1 P2 P3 A0 A1 A2 A3 A4 p h0 h1 h2 (j 0) (i 0) hi0, eq, ek, e1, e2]

/-- The second stored block at `j` is `Gspu` at the array index `i` over it. -/
theorem block_spu (P0 P1 : Vec Ideal S32x64x128 .f32) (P2 : Vec Ideal S64x256 .f32) (P3 : Vec Ideal S256x512 .f32) (A0 A1 : S4096x64x128.Idx → EReal) (A2 A3 : S256x256.Idx → EReal) (A4 : S100x256.Idx → EReal) (p : Nat)
    (h0 : ∀ (b : Fin 32) (t : Fin 64) (h : Fin 128) (n : Fin 4096), n.val = p * 32 + b.val → P0 (ix3 b t h) = A0 (ix3 n t h))
    (h1 : ∀ (b : Fin 32) (t : Fin 64) (h : Fin 128) (n : Fin 4096), n.val = p * 32 + b.val → P1 (ix3 b t h) = A1 (ix3 n t h))
    (h2 : ∀ (t : Fin 64) (h : Fin 256), P2 (ix2 t h) = A4 (ix2 (⟨t.val, by have := t.isLt; omega⟩ : Fin 100) h))
    (hq : ∀ (h d : Fin 256), P3 (ix2 h (⟨d.val, by have := d.isLt; omega⟩ : Fin 512)) = A2 (ix2 h d))
    (hk : ∀ (h d : Fin 256), P3 (ix2 h (⟨256 + d.val, by have := d.isLt; omega⟩ : Fin 512)) = A3 (ix2 h d))
    (j : S32x64x256.Idx) (i : S4096x64x256.Idx) (hi0 : (i 0).val = p * 32 + (j 0).val) (hi1 : (i 1).val = (j 1).val)
    (hi2 : (i 2).val = (j 2).val) :
    k0_pay3 (k0_pay5 P0 P1 P2) (k0_pay7 P0 P1 P2 P3) (k0_pay8 P0 P1 P2 P3) (k0_pay9 P0 P1 P2 P3) j = Gspu A0 A1 A2 A3 A4 i := by
  rw [eq_ix3 j]
  refine (store5_apply P0 P1 P2 P3 (j 0) (j 1) (j 2)).trans ?_
  show spu (X P0 P1 P2 (j 0)) (Wq P3) (Wk P3) (j 1) (j 2) = spu (embOf A0 A1 A4 (i 0)) (matOf A2) (matOf A3) (i 1) (i 2)
  have eq : Wq P3 = matOf A2 := funext fun h => funext fun d => hq h d
  have ek : Wk P3 = matOf A3 := funext fun h => funext fun d => hk h d
  have e1 : (j 1 : Fin 64) = i 1 := Fin.ext hi1.symm
  have e2 : (j 2 : Fin 256) = i 2 := Fin.ext hi2.symm
  rw [X_eq P0 P1 P2 P3 A0 A1 A2 A3 A4 p h0 h1 h2 (j 0) (i 0) hi0, eq, ek, e1, e2]

/-! ## The windows' blocks as rows of the arguments -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 128 points: the item windows and the result windows are on block `t` of
    their leading axis, the two shared windows stay on their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The positional rows as the call finds them: the host's cut of the first 64 rows. -/
theorem V_main_v0 (c : Dev nD) : (V m c main_v0 : S64x256.Idx → EReal)
    = extractStridedSlice S64x256 ![0, 0] (m ((c : Thread nD τ).loc main_arg4)) slices_S100x256_S64x256_0_0 := by
  dsimp only [V, hostOps0]; after_results

/-- The fused weight as the call finds it: the host's join of the query and key matrices. -/
theorem V_main_v1 (c : Dev nD) : (V m c main_v1 : S256x512.Idx → EReal)
    = concatenate S256x512 1 [⟨S256x256, (m ((c : Thread nD τ).loc main_arg2))⟩, ⟨S256x256, (m ((c : Thread nD τ).loc main_arg3))⟩]
        concatenates_S256x256_S256x256_S256x512_d1 := by
  dsimp only [V, hostOps0]; after_results

/-- Entry `b` of the real halves' block at point `t` is item `32·t + b`. -/
theorem iblk0_apply (c : Dev nD) (t : Fin cfg0.N) (b : Fin 32) (s : Fin 64) (h : Fin 128) (n : Fin 4096)
    (hn : n.val = t.val * 32 + b.val) :
    (iblk m c 0 t : Vec Ideal S32x64x128 .f32) (ix3 b s h) = ((m ((c : Thread nD τ).loc main_arg0)) : S4096x64x128.Idx → EReal) (ix3 n s h) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 32 + 1 * b.val = n.val; rw [e0, hn]; omega
  | ⟨1, _⟩ => show win0_0.index t (1 : Fin 3) * 64 + 1 * s.val = s.val; rw [e1]; omega
  | ⟨2, _⟩ => show win0_0.index t (2 : Fin 3) * 128 + 1 * h.val = h.val; rw [e2]; omega

/-- Entry `b` of the imaginary halves' block at point `t` is item `32·t + b`. -/
theorem iblk1_apply (c : Dev nD) (t : Fin cfg0.N) (b : Fin 32) (s : Fin 64) (h : Fin 128) (n : Fin 4096)
    (hn : n.val = t.val * 32 + b.val) :
    (iblk m c 1 t : Vec Ideal S32x64x128 .f32) (ix3 b s h) = ((m ((c : Thread nD τ).loc main_arg1)) : S4096x64x128.Idx → EReal) (ix3 n s h) := by
  obtain ⟨-, -, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 32 + 1 * b.val = n.val; rw [e0, hn]; omega
  | ⟨1, _⟩ => show win0_1.index t (1 : Fin 3) * 64 + 1 * s.val = s.val; rw [e1]; omega
  | ⟨2, _⟩ => show win0_1.index t (2 : Fin 3) * 128 + 1 * h.val = h.val; rw [e2]; omega

/-- The fused weight's one block is the whole fused weight. -/
theorem iblk2_apply (c : Dev nD) (t : Fin cfg0.N) (h : Fin 256) (e : Fin 512) :
    (iblk m c 2 t : Vec Ideal S256x512 .f32) (ix2 h e) = (V m c main_v1 : S256x512.Idx → EReal) (ix2 h e) := by
  obtain ⟨-, -, -, -, -, -, e0, e1, -⟩ := idx_facts t
  unfold iblk
  rw [View.read_apply]
  show V m c main_v1 _ = _
  congr 1
  funext a
  apply Fin.ext
  match a with
  | ⟨0, _⟩ => show win0_2.index t (0 : Fin 2) * 256 + 1 * h.val = h.val; rw [e0]; omega
  | ⟨1, _⟩ => show win0_2.index t (1 : Fin 2) * 512 + 1 * e.val = e.val; rw [e1]; omega

/-- Its left 256 columns are the query matrix … -/
theorem iblk2_q_apply (c : Dev nD) (t : Fin cfg0.N) (h d : Fin 256) :
    (iblk m c 2 t : Vec Ideal S256x512 .f32) (ix2 h (⟨d.val, by have := d.isLt; omega⟩ : Fin 512))
      = ((m ((c : Thread nD τ).loc main_arg2)) : S256x256.Idx → EReal) (ix2 h d) := by
  rw [iblk2_apply, V_main_v1]
  refine (Layout3.concat2_axis1_apply (α := EReal) _ _ concatenates_S256x256_S256x256_S256x512_d1 rfl h _).trans ?_
  exact dif_pos d.isLt

/-- … and its right 256 columns the key matrix. -/
theorem iblk2_k_apply (c : Dev nD) (t : Fin cfg0.N) (h d : Fin 256) :
    (iblk m c 2 t : Vec Ideal S256x512 .f32) (ix2 h (⟨256 + d.val, by have := d.isLt; omega⟩ : Fin 512))
      = ((m ((c : Thread nD τ).loc main_arg3)) : S256x256.Idx → EReal) (ix2 h d) := by
  rw [iblk2_apply, V_main_v1]
  refine (Layout3.concat2_axis1_apply (α := EReal) _ _ concatenates_S256x256_S256x256_S256x512_d1 rfl h _).trans ?_
  rw [dif_neg (by show ¬ (256 + d.val < 256); omega)]
  exact congrArg _ (congrArg (ix2 h) (Fin.ext (by show 256 + d.val - 256 = d.val; omega)))

/-- The positional block is the first 64 rows of the positional array. -/
theorem iblk3_apply (c : Dev nD) (t : Fin cfg0.N) (s : Fin 64) (h : Fin 256) :
    (iblk m c 3 t : Vec Ideal S64x256 .f32) (ix2 s h)
      = ((m ((c : Thread nD τ).loc main_arg4)) : S100x256.Idx → EReal) (ix2 (⟨s.val, by have := s.isLt; omega⟩ : Fin 100) h) := by
  obtain ⟨-, -, -, -, -, -, -, -, e0, e1, -⟩ := idx_facts t
  unfold iblk
  rw [View.read_apply]
  show V m c main_v0 _ = _
  rw [V_main_v0]
  refine extractStridedSlice_apply _ _ _ _ _ fun a => ?_
  match a with
  | ⟨0, _⟩ => show s.val = 0 + (win0_3.index t (0 : Fin 2) * 64 + 1 * s.val); rw [e0]; omega
  | ⟨1, _⟩ => show h.val = 0 + (win0_3.index t (1 : Fin 2) * 256 + 1 * h.val); rw [e1]; omega

/-! ## The first result -/

/-- WHAT POINT `t` WRITES BACK to this result is block `t` of `Gcau` of the arguments. -/
theorem flushed4_eq (c : Dev nD) (t : Fin cfg0.N) :
    (dats m 0 c).flushed 4 t = ((cfg0.win 4).blk t).view.read (Elt Ideal) (Gcau (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed4]
  unfold out0_4
  rw [View.canon_unit_zero hz3]
  simp only [View.ld_unit_zero (S := S32x64x128) hz3, View.ld_unit_zero (S := S64x256) hz2, View.ld_unit_zero (S := S256x512) hz2]
  obtain ⟨-, -, -, -, -, -, -, -, -, -, e0, e1, e2, -, -, -⟩ := idx_facts t
  funext j
  show k0_pay2 (k0_pay4 (iblk m c 0 t) (iblk m c 1 t) (iblk m c 3 t)) (k0_pay5 (iblk m c 0 t) (iblk m c 1 t) (iblk m c 3 t)) (k0_pay7 (iblk m c 0 t) (iblk m c 1 t) (iblk m c 3 t) (iblk m c 2 t)) (k0_pay8 (iblk m c 0 t) (iblk m c 1 t) (iblk m c 3 t) (iblk m c 2 t)) (k0_pay9 (iblk m c 0 t) (iblk m c 1 t) (iblk m c 3 t) (iblk m c 2 t)) j = Gcau (m ((c : Thread nD τ).loc main_arg0)) (m ((c : Thread nD τ).loc main_arg1)) (m ((c : Thread nD τ).loc main_arg2)) (m ((c : Thread nD τ).loc main_arg3)) (m ((c : Thread nD τ).loc main_arg4)) (((cfg0.win 4).blk t).view.emb j)
  refine block_cau (iblk m c 0 t) (iblk m c 1 t) (iblk m c 3 t) (iblk m c 2 t) (m ((c : Thread nD τ).loc main_arg0)) (m ((c : Thread nD τ).loc main_arg1)) (m ((c : Thread nD τ).loc main_arg2)) (m ((c : Thread nD τ).loc main_arg3)) (m ((c : Thread nD τ).loc main_arg4)) t.val
    (fun b s h n hn => iblk0_apply m c t b s h n hn) (fun b s h n hn => iblk1_apply m c t b s h n hn)
    (fun s h => iblk3_apply m c t s h) (fun h d => iblk2_q_apply m c t h d) (fun h d => iblk2_k_apply m c t h d)
    j (((cfg0.win 4).blk t).view.emb j) ?_ ?_ ?_
  · show win0_4.index t (0 : Fin 3) * 32 + 1 * (j 0).val = t.val * 32 + (j 0).val
    rw [e0]; omega
  · show win0_4.index t (1 : Fin 3) * 64 + 1 * (j 1).val = (j 1).val
    rw [e1]; omega
  · show win0_4.index t (2 : Fin 3) * 256 + 1 * (j 2).val = (j 2).val
    rw [e2]; omega

/-- An index of the result array is in point `t`'s block iff each coordinate is in the block's range on its axis. -/
theorem mem_blk4 (t : Fin cfg0.N) (i : S4096x64x256.Idx) :
    i ∈ ((cfg0.win 4).blk t).view.set ↔ ∀ a : Fin 3, win0_4.index t a * S32x64x256.size a ≤ (i a).val
      ∧ (i a).val < win0_4.index t a * S32x64x256.size a + S32x64x256.size a := by
  show i ∈ ((View.whole main_v2_0).slice (win0_4.rect t)).set ↔ _
  rw [View.set_slice_whole, Rect.mem_set_unit]
  exact Iff.rfl

/-- Item `n` lies in the block of point `n / 32`: the 128 blocks of 32 items cover the array. -/
theorem cover4 (i : S4096x64x256.Idx) :
    ∃ t : Fin cfg0.N, (cfg0.win 4).flush t = true ∧ i ∈ ((cfg0.win 4).blk t).view.set := by
  have hi0 : (i 0).val < 4096 := (i 0).isLt
  have hi1 : (i 1).val < 64 := (i 1).isLt
  have hi2 : (i 2).val < 256 := (i 2).isLt
  have hlt : (i 0).val / 32 < cfg0.N := by rw [show cfg0.N = 128 from N_0]; omega
  obtain ⟨-, -, -, -, -, -, -, -, -, -, e0, e1, e2, -, -, -⟩ := idx_facts ⟨(i 0).val / 32, hlt⟩
  refine ⟨⟨(i 0).val / 32, hlt⟩, flush0_4 _, ?_⟩
  rw [mem_blk4]
  intro a
  match a with
  | ⟨0, _⟩ =>
    show win0_4.index ⟨(i 0).val / 32, hlt⟩ (0 : Fin 3) * 32 ≤ (i 0).val ∧ (i 0).val < win0_4.index ⟨(i 0).val / 32, hlt⟩ (0 : Fin 3) * 32 + 32
    rw [e0]; show (i 0).val / 32 * 32 ≤ (i 0).val ∧ (i 0).val < (i 0).val / 32 * 32 + 32; omega
  | ⟨1, _⟩ =>
    show win0_4.index ⟨(i 0).val / 32, hlt⟩ (1 : Fin 3) * 64 ≤ (i 1).val ∧ (i 1).val < win0_4.index ⟨(i 0).val / 32, hlt⟩ (1 : Fin 3) * 64 + 64
    rw [e1]; omega
  | ⟨2, _⟩ =>
    show win0_4.index ⟨(i 0).val / 32, hlt⟩ (2 : Fin 3) * 256 ≤ (i 2).val ∧ (i 2).val < win0_4.index ⟨(i 0).val / 32, hlt⟩ (2 : Fin 3) * 256 + 256
    rw [e2]; omega

/-- THE RESULT ARRAY after the run is `Gcau` of the arguments. -/
theorem final4 (c : Dev nD) : (dats m 0 c).arrAt 4 cfg0.N = Gcau (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 4 (Gcau (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed4_eq m c t) cover4

/-! ## The second result -/

/-- WHAT POINT `t` WRITES BACK to this result is block `t` of `Gspu` of the arguments. -/
theorem flushed5_eq (c : Dev nD) (t : Fin cfg0.N) :
    (dats m 0 c).flushed 5 t = ((cfg0.win 5).blk t).view.read (Elt Ideal) (Gspu (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5]
  unfold out0_5
  rw [View.canon_unit_zero hz3]
  simp only [View.ld_unit_zero (S := S32x64x128) hz3, View.ld_unit_zero (S := S64x256) hz2, View.ld_unit_zero (S := S256x512) hz2]
  obtain ⟨-, -, -, -, -, -, -, -, -, -, -, -, -, e0, e1, e2⟩ := idx_facts t
  funext j
  show k0_pay3 (k0_pay5 (iblk m c 0 t) (iblk m c 1 t) (iblk m c 3 t)) (k0_pay7 (iblk m c 0 t) (iblk m c 1 t) (iblk m c 3 t) (iblk m c 2 t)) (k0_pay8 (iblk m c 0 t) (iblk m c 1 t) (iblk m c 3 t) (iblk m c 2 t)) (k0_pay9 (iblk m c 0 t) (iblk m c 1 t) (iblk m c 3 t) (iblk m c 2 t)) j = Gspu (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j)
  refine block_spu (iblk m c 0 t) (iblk m c 1 t) (iblk m c 3 t) (iblk m c 2 t) (m ((c : Thread nD τ).loc main_arg0)) (m ((c : Thread nD τ).loc main_arg1)) (m ((c : Thread nD τ).loc main_arg2)) (m ((c : Thread nD τ).loc main_arg3)) (m ((c : Thread nD τ).loc main_arg4)) t.val
    (fun b s h n hn => iblk0_apply m c t b s h n hn) (fun b s h n hn => iblk1_apply m c t b s h n hn)
    (fun s h => iblk3_apply m c t s h) (fun h d => iblk2_q_apply m c t h d) (fun h d => iblk2_k_apply m c t h d)
    j (((cfg0.win 5).blk t).view.emb j) ?_ ?_ ?_
  · show win0_5.index t (0 : Fin 3) * 32 + 1 * (j 0).val = t.val * 32 + (j 0).val
    rw [e0]; omega
  · show win0_5.index t (1 : Fin 3) * 64 + 1 * (j 1).val = (j 1).val
    rw [e1]; omega
  · show win0_5.index t (2 : Fin 3) * 256 + 1 * (j 2).val = (j 2).val
    rw [e2]; omega

/-- An index of the result array is in point `t`'s block iff each coordinate is in the block's range on its axis. -/
theorem mem_blk5 (t : Fin cfg0.N) (i : S4096x64x256.Idx) :
    i ∈ ((cfg0.win 5).blk t).view.set ↔ ∀ a : Fin 3, win0_5.index t a * S32x64x256.size a ≤ (i a).val
      ∧ (i a).val < win0_5.index t a * S32x64x256.size a + S32x64x256.size a := by
  show i ∈ ((View.whole main_v2_1).slice (win0_5.rect t)).set ↔ _
  rw [View.set_slice_whole, Rect.mem_set_unit]
  exact Iff.rfl

/-- Item `n` lies in the block of point `n / 32`: the 128 blocks of 32 items cover the array. -/
theorem cover5 (i : S4096x64x256.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  have hi2 : (i 2).val < 256 := (i 2).isLt
  have hlt : (i 0).val / 32 < cfg0.N := by rw [show cfg0.N = 128 from N_0]; omega
  obtain ⟨-, -, -, -, -, -, -, -, -, -, -, -, -, e0, e1, e2⟩ := idx_facts ⟨(i 0).val / 32, hlt⟩
  refine ⟨⟨(i 0).val / 32, hlt⟩, flush0_5 _, ?_⟩
  rw [mem_blk5]
  intro a
  match a with
  | ⟨0, _⟩ =>
    show win0_5.index ⟨(i 0).val / 32, hlt⟩ (0 : Fin 3) * 32 ≤ (i 0).val ∧ (i 0).val < win0_5.index ⟨(i 0).val / 32, hlt⟩ (0 : Fin 3) * 32 + 32
    rw [e0]; show (i 0).val / 32 * 32 ≤ (i 0).val ∧ (i 0).val < (i 0).val / 32 * 32 + 32; omega
  | ⟨1, _⟩ =>
    show win0_5.index ⟨(i 0).val / 32, hlt⟩ (1 : Fin 3) * 64 ≤ (i 1).val ∧ (i 1).val < win0_5.index ⟨(i 0).val / 32, hlt⟩ (1 : Fin 3) * 64 + 64
    rw [e1]; omega
  | ⟨2, _⟩ =>
    show win0_5.index ⟨(i 0).val / 32, hlt⟩ (2 : Fin 3) * 256 ≤ (i 2).val ∧ (i 2).val < win0_5.index ⟨(i 0).val / 32, hlt⟩ (2 : Fin 3) * 256 + 256
    rw [e2]; omega

/-- THE RESULT ARRAY after the run is `Gspu` of the arguments. -/
theorem final5 (c : Dev nD) : (dats m 0 c).arrAt 5 cfg0.N = Gspu (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (Gspu (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed5_eq m c t) cover5

/-! ## The run, read -/

/-- Every weakly fair execution of the kernel's program ends with the two result arrays at `Gcau` and `Gspu` of the
    arguments, and the arguments unchanged. -/
theorem run : θ_run defs (onTc (τ := τ) (main (F := Ideal))) ⟨m, fun _ => 0, ρ⟩ fun r => ∀ c : Dev nD,
      r.2.mem ((c : Thread nD τ).loc main_v2_0) = Gcau (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v2_1) = Gspu (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (Value.run_blocks m ρ)

end Cert.KernelIdeal.Whole

end
-- ==== Proof.RefItem.lean ====
/-
  One item, through the reference.

  The reference's stages read at `(n, t, ·)` are the item mathematics of `Spec` applied to item `n`'s rows of the whole
  arrays: the joined halves plus the first 64 positional rows are the embedding; the two projections are its products
  with the query and key matrices; the scores are their batched inner products divided by √64 and then by 1, which is a
  product with 1/8; the two normalisations are `soft` of the score rows and of their negatives; the results are the
  weighted sums of the embedding's rows, the first with the embedding added.
-/
import proofs.«161213_j35476429865426_2_alg».proof.Proof.Gen.ReferenceIdeal.Read
import proofs.«161213_j35476429865426_2_alg».proof.Proof.Spec
import proofs.«161213_j35476429865426_2_alg».proof.Proof.LibLayout3
import proofs.«161213_j35476429865426_2_alg».proof.Proof.LibSoftmax
import Idealize.ShloMosaic.Lib.ValueIdx
import Idealize.ShloMosaic.Lib.Pipeline.Value

noncomputable section

open scoped BigOperators

namespace Cert.ReferenceIdeal.Item

open Cert.ReferenceIdeal Cert.ReferenceIdeal.Gen Cert.ReferenceIdeal.Read
open Idealize.ShloMosaic Idealize.ShloMosaic.TcCoe Idealize.ShloMosaic.ValueIdx
open Cert.Lib Cert.Lib.Softmax Cert.Attn

variable (x0 x1 : (⟨S4096x64x128, .f32⟩ : BufTy).Contents (Elt Ideal)) (x2 x3 : (⟨S256x256, .f32⟩ : BufTy).Contents (Elt Ideal))
  (x4 : (⟨S100x256, .f32⟩ : BufTy).Contents (Elt Ideal))

/-- The embedding, at `(n, t, h)`. -/
theorem v4_apply (n : Fin 4096) (t : Fin 64) (h : Fin 256) :
    val_main_v4 (F := Ideal) x0 x1 x4 (ix3 n t h) = embOf x0 x1 x4 n t h := by
  have e1 := Layout3.concat_axis2_apply (α := EReal) x0 x1 concatenates_S4096x64x128_S4096x64x128_S4096x64x256_d2 rfl n t h
  have e2 : val_main_v3 (F := Ideal) x4 (ix3 n t h) = x4 (ix2 (⟨t.val, by have := t.isLt; omega⟩ : Fin 100) h) := by
    rw [val_main_v3_apply, val_main_v2_apply, val_main_v1_apply]
    exact congrArg x4 (funext fun ax => Fin.ext (by match ax with | ⟨0, _⟩ => rfl | ⟨1, _⟩ => rfl))
  exact congrArg₂ (· + ·) e1 e2

/-- The queries, at `(n, t, d)`. -/
theorem v5_apply (n : Fin 4096) (t : Fin 64) (d : Fin 256) :
    val_main_v5 (F := Ideal) x0 x1 x2 x4 (ix3 n t d) = proj (embOf x0 x1 x4 n) (matOf x2) t d := by
  rw [val_main_v5_apply]
  unfold proj
  refine Finset.sum_congr rfl fun k _ => congrArg₂ (· * ·) ?_ ?_
  · rw [(funext fun ax => Fin.ext (by match ax with | ⟨0, _⟩ => rfl | ⟨1, _⟩ => rfl | ⟨2, _⟩ => rfl) : lidx_main_v5 (ix3 n t d) k = ix3 n t k)]
    exact v4_apply x0 x1 x4 n t k
  · exact congrArg x2 (funext fun ax => Fin.ext (by match ax with | ⟨0, _⟩ => rfl | ⟨1, _⟩ => rfl))

/-- The keys, at `(n, t, d)`. -/
theorem v6_apply (n : Fin 4096) (t : Fin 64) (d : Fin 256) :
    val_main_v6 (F := Ideal) x0 x1 x3 x4 (ix3 n t d) = proj (embOf x0 x1 x4 n) (matOf x3) t d := by
  rw [val_main_v6_apply]
  unfold proj
  refine Finset.sum_congr rfl fun k _ => congrArg₂ (· * ·) ?_ ?_
  · rw [(funext fun ax => Fin.ext (by match ax with | ⟨0, _⟩ => rfl | ⟨1, _⟩ => rfl | ⟨2, _⟩ => rfl) : lidx_main_v6 (ix3 n t d) k = ix3 n t k)]
    exact v4_apply x0 x1 x4 n t k
  · exact congrArg x3 (funext fun ax => Fin.ext (by match ax with | ⟨0, _⟩ => rfl | ⟨1, _⟩ => rfl))

/-- THE SCORES of item `n`: the quotient by √64 and by 1 is the product with 1/8. -/
theorem v12_apply (n : Fin 4096) (t s : Fin 64) :
    val_main_v12 (F := Ideal) x0 x1 x2 x3 x4 (ix3 n t s) = score (embOf x0 x1 x4 n) (matOf x2) (matOf x3) t s := by
  rw [val_main_v12_apply, val_main_v10_apply, val_main_v11_apply, val_main_cst_0_apply, val_main_v9_apply,
    val_main_v8_apply, val_main_cst_apply, val_main_v7_apply]
  simp only [Ideal.hostDivf_def, Ideal.hostUnary_sqrt_def, Ideal.ofBits_def]
  rw [div_sqrt64_div_one]
  unfold score
  refine congrArg (· * eighth) (Finset.sum_congr rfl fun k _ => congrArg₂ (· * ·) ?_ ?_)
  · rw [(funext fun ax => Fin.ext (by match ax with | ⟨0, _⟩ => rfl | ⟨1, _⟩ => rfl | ⟨2, _⟩ => rfl) : lidx_main_v7 (ix3 n t s) k = ix3 n t k)]
    exact v5_apply x0 x1 x2 x4 n t k
  · rw [(funext fun ax => Fin.ext (by match ax with | ⟨0, _⟩ => rfl | ⟨1, _⟩ => rfl | ⟨2, _⟩ => rfl) : ridx_main_v7 (ix3 n t s) k = ix3 n s k)]
    exact v6_apply x0 x1 x3 x4 n s k

/-- The weights of the scores. -/
theorem v23_apply (n : Fin 4096) (t s : Fin 64) :
    val_main_v23 (F := Ideal) x0 x1 x2 x3 x4 (ix3 n t s) = soft (score (embOf x0 x1 x4 n) (matOf x2) (matOf x3) t) s :=
  (Softmax.host_soft_apply (val_main_v12 (F := Ideal) x0 x1 x2 x3 x4) reducesTo_S4096x64x64_S4096x64_d2 h_S_ bcast_S_S4096x64 bcast_S4096x64_S4096x64x1_0_1 bcast_S4096x64x1_S4096x64x64_0_1_2 (by decide) n t s).trans
    (congrArg (fun S => soft S s) (funext fun s' => v12_apply x0 x1 x2 x3 x4 n t s'))

/-- The negated scores. -/
theorem v24_apply (n : Fin 4096) (t s : Fin 64) :
    val_main_v24 (F := Ideal) x0 x1 x2 x3 x4 (ix3 n t s) = -score (embOf x0 x1 x4 n) (matOf x2) (matOf x3) t s := by
  rw [val_main_v24_apply, v12_apply]
  rfl

/-- The weights of the negated scores. -/
theorem v35_apply (n : Fin 4096) (t s : Fin 64) :
    val_main_v35 (F := Ideal) x0 x1 x2 x3 x4 (ix3 n t s)
      = soft (fun s' => -score (embOf x0 x1 x4 n) (matOf x2) (matOf x3) t s') s :=
  (Softmax.host_soft_apply (val_main_v24 (F := Ideal) x0 x1 x2 x3 x4) reducesTo_S4096x64x64_S4096x64_d2 h_S_ bcast_S_S4096x64 bcast_S4096x64_S4096x64x1_0_1 bcast_S4096x64x1_S4096x64x64_0_1_2 (by decide) n t s).trans
    (congrArg (fun S => soft S s) (funext fun s' => v24_apply x0 x1 x2 x3 x4 n t s'))

/-- THE FIRST RESULT at `(n, t, d)`. -/
theorem v37_apply (n : Fin 4096) (t : Fin 64) (d : Fin 256) :
    val_main_v37 (F := Ideal) x0 x1 x2 x3 x4 (ix3 n t d) = cau (embOf x0 x1 x4 n) (matOf x2) (matOf x3) t d := by
  rw [val_main_v37_apply, val_main_v36_apply]
  unfold cau
  refine congrArg₂ (· + ·) (Finset.sum_congr rfl fun k _ => congrArg₂ (· * ·) ?_ ?_) (v4_apply x0 x1 x4 n t d)
  · rw [(funext fun ax => Fin.ext (by match ax with | ⟨0, _⟩ => rfl | ⟨1, _⟩ => rfl | ⟨2, _⟩ => rfl) : lidx_main_v36 (ix3 n t d) k = ix3 n t k)]
    exact v23_apply x0 x1 x2 x3 x4 n t k
  · rw [(funext fun ax => Fin.ext (by match ax with | ⟨0, _⟩ => rfl | ⟨1, _⟩ => rfl | ⟨2, _⟩ => rfl) : ridx_main_v36 (ix3 n t d) k = ix3 n k d)]
    exact v4_apply x0 x1 x4 n k d

/-- THE SECOND RESULT at `(n, t, d)`. -/
theorem v38_apply (n : Fin 4096) (t : Fin 64) (d : Fin 256) :
    val_main_v38 (F := Ideal) x0 x1 x2 x3 x4 (ix3 n t d) = spu (embOf x0 x1 x4 n) (matOf x2) (matOf x3) t d := by
  rw [val_main_v38_apply]
  unfold spu
  refine Finset.sum_congr rfl fun k _ => congrArg₂ (· * ·) ?_ ?_
  · rw [(funext fun ax => Fin.ext (by match ax with | ⟨0, _⟩ => rfl | ⟨1, _⟩ => rfl | ⟨2, _⟩ => rfl) : lidx_main_v38 (ix3 n t d) k = ix3 n t k)]
    exact v35_apply x0 x1 x2 x3 x4 n t k
  · rw [(funext fun ax => Fin.ext (by match ax with | ⟨0, _⟩ => rfl | ⟨1, _⟩ => rfl | ⟨2, _⟩ => rfl) : ridx_main_v38 (ix3 n t d) k = ix3 n k d)]
    exact v4_apply x0 x1 x4 n k d

/-- The reference's first result is `Gcau` of its arguments. -/
theorem v37_eq : val_main_v37 (F := Ideal) x0 x1 x2 x3 x4 = Gcau x0 x1 x2 x3 x4 := by
  funext i
  rw [eq_ix3 i]
  exact v37_apply x0 x1 x2 x3 x4 (i 0) (i 1) (i 2)

/-- The reference's second result is `Gspu` of its arguments. -/
theorem v38_eq : val_main_v38 (F := Ideal) x0 x1 x2 x3 x4 = Gspu x0 x1 x2 x3 x4 := by
  funext i
  rw [eq_ix3 i]
  exact v38_apply x0 x1 x2 x3 x4 (i 0) (i 1) (i 2)

end Cert.ReferenceIdeal.Item

end
-- ==== Proof.lean ====
/-
  An attention layer over 4096 items of 64 tokens, kernel against reference, on the extended reals.

  Per item both programs lay the real and imaginary halves side by side and add the positional rows (the embedding
  `X`), project it by the query and key matrices, take the scores `(X·Qw)(X·Kw)ᵀ` scaled by 1/8, normalise each score
  row and each negated score row by exponentials taken against the row's maximum, and return the weighted sums of the
  embedding's rows — the first with the embedding added back. `Spec` states this once (`Gcau`, `Gspu`).

  The kernel does it 32 items at a time over 128 grid points, with one fused projection `[2048, 256]·[256, 512]`
  split into its halves, the two weight blocks stacked and multiplied in one batched product, the scale spelt `· 1/8`
  and the negation `0 − x`; the reference does it for all items at once, the scale spelt `/ √64 / 1`. At the ideal
  instance every product is an exact sum and a change of float format is the identity, so both are the same sums;
  `x / √64 / 1 = x · 1/8` and `0 − x = −x` hold on every extended real, so the two agree on all inputs and the
  precondition is never opened. `KerItem` and `Blocks` read the kernel's run as `Gcau`, `Gspu` of the arguments,
  `RefItem` the reference's; the frames are the generated ones, and the idealization rewrote nothing.
-/
import proofs.«161213_j35476429865426_2_alg».proof.Defs
import proofs.«161213_j35476429865426_2_alg».proof.Proof.Gen.Kernel
import proofs.«161213_j35476429865426_2_alg».proof.Proof.Gen.Kernel.Skeleton
import proofs.«161213_j35476429865426_2_alg».proof.Proof.Gen.Kernel.Launch
import proofs.«161213_j35476429865426_2_alg».proof.Proof.Gen.Kernel.Points
import proofs.«161213_j35476429865426_2_alg».proof.Proof.Gen.Kernel.Frame
import proofs.«161213_j35476429865426_2_alg».proof.Proof.Gen.KernelIdeal
import proofs.«161213_j35476429865426_2_alg».proof.Proof.Gen.KernelIdeal.Skeleton
import proofs.«161213_j35476429865426_2_alg».proof.Proof.Gen.KernelIdeal.Launch
import proofs.«161213_j35476429865426_2_alg».proof.Proof.Gen.KernelIdeal.Points
import proofs.«161213_j35476429865426_2_alg».proof.Proof.Gen.KernelIdeal.Frame
import proofs.«161213_j35476429865426_2_alg».proof.Proof.Gen.ReferenceIdeal
import proofs.«161213_j35476429865426_2_alg».proof.Proof.Gen.Pre_finite_inputs
import proofs.«161213_j35476429865426_2_alg».proof.Proof.Gen.KernelIdeal.Value
import proofs.«161213_j35476429865426_2_alg».proof.Proof.Gen.ReferenceIdeal.Run
import proofs.«161213_j35476429865426_2_alg».proof.Proof.Gen.ReferenceIdeal.Read
import proofs.«161213_j35476429865426_2_alg».proof.Proof.Spec
import proofs.«161213_j35476429865426_2_alg».proof.Proof.Blocks
import proofs.«161213_j35476429865426_2_alg».proof.Proof.RefItem
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with their two results at `Gcau` and `Gspu` of the arguments they agree on. -/
theorem algebraic : Cert.algebraic_KernelIdeal_ReferenceIdeal := by
  intro m ρ m' ρ' _ hagree
  refine ⟨fun c => Cert.Attn.Gcau (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Cert.Attn.Gspu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v37_eq, Cert.ReferenceIdeal.Item.v37_eq,
      (hagree c).1, (hagree c).2.1, (hagree c).2.2.1, (hagree c).2.2.2.1, (hagree c).2.2.2.2]
  · rw [(h c).2.1, Cert.ReferenceIdeal.Read.val_main_v38_eq, Cert.ReferenceIdeal.Item.v38_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
